-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x32x32 : Shape := ⟨4, ![8, 512, 32, 32]⟩
abbrev S1536x512 : Shape := ⟨2, ![1536, 512]⟩
abbrev S512x512 : Shape := ⟨2, ![512, 512]⟩
abbrev S512 : Shape := ⟨1, ![512]⟩
abbrev S_ : Shape := ⟨0, ![]⟩

class Facts : Prop where
  bcast_S_S8x512x32x32 : S_.BroadcastsInDim S8x512x32x32 (![] : Fin 0 → Fin S8x512x32x32.rank)
  reducesTo_S8x512x32x32_S_d0_1_2_3 : S8x512x32x32.ReducesTo [0, 1, 2, 3] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x512x32x32 .f32) (main_arg1 : FVec F S1536x512 .f32) (main_arg2 : FVec F S512x512 .f32) (main_arg3 : FVec F S512 .f32) : IVec S_ 1 :=
  let main_v0 : FVec F S8x512x32x32 .f32 := Host.absf main_arg0
  let main_cst : FVec F S_ .f32 := constant S_ .f32 0x7F800000#32
  let main_v1 : FVec F S8x512x32x32 .f32 := broadcastInDim S8x512x32x32 ![] bcast_S_S8x512x32x32 main_cst
  let main_v2 : IVec S8x512x32x32 1 := cmpf .olt main_v0 main_v1
  let main_c : IVec S_ 1 := constantI S_ 1 1#1
  let main_v3 : IVec S_ 1 := (fun x v => Host.reduce IntOp.andi x v reducesTo_S8x512x32x32_S_d0_1_2_3 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x512x32x32 : Shape := ⟨4, ![8, 512, 32, 32]⟩
abbrev S1536x512 : Shape := ⟨2, ![1536, 512]⟩
abbrev S512x512 : Shape := ⟨2, ![512, 512]⟩
abbrev S512 : Shape := ⟨1, ![512]⟩
abbrev S8x512x1024 : Shape := ⟨3, ![8, 512, 1024]⟩
abbrev S512x1 : Shape := ⟨2, ![512, 1]⟩
abbrev S1x512x1024 : Shape := ⟨3, ![1, 512, 1024]⟩
abbrev S512x1024 : Shape := ⟨2, ![512, 1024]⟩
abbrev S64x1024 : Shape := ⟨2, ![64, 1024]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S8x512x32x32, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S8x512x1024, .f32⟩
  | .hbm, ⟨5, _⟩ => ⟨S1536x512, .bf16⟩
  | .hbm, ⟨6, _⟩ => ⟨S512x512, .bf16⟩
  | .hbm, ⟨7, _⟩ => ⟨S512x1, .f32⟩
  | .hbm, ⟨8, _⟩ => ⟨S8x512x1024, .f32⟩
  | .hbm, ⟨9, _⟩ => ⟨S8x512x32x32, .f32⟩
  | .local _ .vmem, ⟨0, _⟩ => ⟨S1x512x1024, .f32⟩
  | .local _ .vmem, ⟨1, _⟩ => ⟨S1x512x1024, .f32⟩
  | .local _ .vmem, ⟨2, _⟩ => ⟨S1536x512, .bf16⟩
  | .local _ .vmem, ⟨3, _⟩ => ⟨S512x512, .bf16⟩
  | .local _ .vmem, ⟨4, _⟩ => ⟨S512x1, .f32⟩
  | .local _ .vmem, ⟨5, _⟩ => ⟨S1x512x1024, .f32⟩
  | .local _ .vmem, ⟨6, _⟩ => ⟨S1x512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v24 : BitVec 32 := Scalar.addi c0_i32 c8_i32
  let c1_i32 : BitVec 32 := 1#32
  ⟨c0_i32, v24, c1_i32⟩
def k0_mult1 (k0_t1 : Fin k0_t1_loop.trips) : BitVec 32 :=
  let c0_i32_26 : BitVec 32 := 0#32
  let c0_i32 : BitVec 32 := 0#32
  let c1_i32 : BitVec 32 := 1#32
  let arg10 : BitVec 32 := Scf.iv c0_i32 c1_i32 k0_t1
  let c1_i32_25 : BitVec 32 := 1#32
  let v36 : BitVec 32 := Scalar.muli arg10 c1_i32_25
  let v37 : BitVec 32 := Scalar.addi c0_i32_26 v36
  let c64_i32 : BitVec 32 := 64#32
  let v38 : BitVec 32 := Scalar.muli v37 c64_i32
  v38
def k0_off1 (k0_t1 : Fin k0_t1_loop.trips) : Fin 2 → Nat :=
  let c0_i32_26 : BitVec 32 := 0#32
  let c0_i32 : BitVec 32 := 0#32
  let c1_i32 : BitVec 32 := 1#32
  let arg10 : BitVec 32 := Scf.iv c0_i32 c1_i32 k0_t1
  let c1_i32_25 : BitVec 32 := 1#32
  let v36 : BitVec 32 := Scalar.muli arg10 c1_i32_25
  let v37 : BitVec 32 := Scalar.addi c0_i32_26 v36
  let c64_i32 : BitVec 32 := 64#32
  let v38 : BitVec 32 := Scalar.muli v37 c64_i32
  let v39 : BitVec 32 := v38
  let v40 : Index := Scalar.indexCast v39
  let c0_27 : Index := 0#32
  ![v40.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x512x32x32_S8x512x1024 : S8x512x32x32.ShapeCasts S8x512x1024
  bitsLt_bf16_f32 : FTy.bits .bf16 < FTy.bits .f32
  shapeCasts_S512_S512x1 : S512.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1536x512_S512x512_0_0 : ∀ a, (![0, 0] : Fin 2 → Nat) a + S512x512.size a ≤ S1536x512.size a
  h_S512x512 : 0 < S512x512.numel
  shapeCasts_S512x512_S512x512 : S512x512.ShapeCasts S512x512
  inb_S1536x512_S512x512_512_0 : ∀ a, (![512, 0] : Fin 2 → Nat) a + S512x512.size a ≤ S1536x512.size a
  inb_S1536x512_S512x512_1024_0 : ∀ a, (![1024, 0] : Fin 2 → Nat) a + S512x512.size a ≤ S1536x512.size a
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  h_S64x1024 : 0 < S64x1024.numel
  transposes_S64x1024_p1_0_S1024x64 : S64x1024.Transposes [1, 0] S1024x64
  reduces_S1024x1024_S1024 : S1024x1024.Reduces [1] S1024
  shapeCasts_S1024_S1024x1 : S1024.ShapeCasts S1024x1
  broadcasts_S1024x1_S1024x1024 : S1024x1.Broadcasts S1024x1024
  transposes_S1024x64_p1_0_S64x1024 : S1024x64.Transposes [1, 0] S64x1024
  shapeCasts_S64x1024_S64x1024 : S64x1024.ShapeCasts S64x1024
  inb_S512x512_S512x512_0_0 : ∀ a, (![0, 0] : Fin 2 → Nat) a + S512x512.size a ≤ S512x512.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  shapeCasts_S512x1024_S1x512x1024 : S512x1024.ShapeCasts S1x512x1024
  shapeCasts_S8x512x1024_S8x512x32x32 : S8x512x1024.ShapeCasts S8x512x32x32
  dot_S512x512_S512x1024_S512x1024_1_0_0_1_n_n_wf : DotDims.WF S512x512 S512x1024 S512x1024 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S64x1024.size a ≤ S512x1024.size a
  k0_off1_packedbf16 : ∀ k0_t1 : Fin k0_t1_loop.trips, (Rect.unit (s := S512x1024) (k0_off1 k0_t1) S64x1024.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x512x1024.size a
  hwx0_0 : ∀ i : grid0.Coords, EltTy.bits .f32 = 32 ∨ (Rect.block (s := S8x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x512x1024.size a
  hwx0_4 : ∀ i : grid0.Coords, EltTy.bits .f32 = 32 ∨ (Rect.block (s := S8x512x1024) S1x512x1024.size (cc0_transform_4 i) (hinb0_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x32x32 : Shape := ⟨4, ![8, 512, 32, 32]⟩
abbrev S1536x512 : Shape := ⟨2, ![1536, 512]⟩
abbrev S512x512 : Shape := ⟨2, ![512, 512]⟩
abbrev S512 : Shape := ⟨1, ![512]⟩
abbrev S8x32x32x512 : Shape := ⟨4, ![8, 32, 32, 512]⟩
abbrev S8x1024x512 : Shape := ⟨3, ![8, 1024, 512]⟩
abbrev S8x1024x1536 : Shape := ⟨3, ![8, 1024, 1536]⟩
abbrev S8x1024x3x8x64 : Shape := ⟨5, ![8, 1024, 3, 8, 64]⟩
abbrev S3x8x8x1024x64 : Shape := ⟨5, ![3, 8, 8, 1024, 64]⟩
abbrev S1x8x8x1024x64 : Shape := ⟨5, ![1, 8, 8, 1024, 64]⟩
abbrev S8x8x1024x64 : Shape := ⟨4, ![8, 8, 1024, 64]⟩
abbrev S8x8x1024x1024 : Shape := ⟨4, ![8, 8, 1024, 1024]⟩
abbrev S_ : Shape := ⟨0, ![]⟩
abbrev S8x8x1024 : Shape := ⟨3, ![8, 8, 1024]⟩
abbrev S8x8x1024x1 : Shape := ⟨4, ![8, 8, 1024, 1]⟩
abbrev S8x1024x8x64 : Shape := ⟨4, ![8, 1024, 8, 64]⟩
abbrev S1x1x512 : Shape := ⟨3, ![1, 1, 512]⟩

abbrev nBuf : Space → Nat
  | .hbm => 42
  | .vmem => 0
  | .smem => 0
  | _ => 0

abbrev bufTy : (tb : Table) → Fin (tcTables nBuf tb) → BufTy
  | .hbm, ⟨0, _⟩ => ⟨S8x512x32x32, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S8x32x32x512, .f32⟩
  | .hbm, ⟨5, _⟩ => ⟨S8x1024x512, .f32⟩
  | .hbm, ⟨6, _⟩ => ⟨S8x1024x1536, .f32⟩
  | .hbm, ⟨7, _⟩ => ⟨S8x1024x3x8x64, .f32⟩
  | .hbm, ⟨8, _⟩ => ⟨S3x8x8x1024x64, .f32⟩
  | .hbm, ⟨9, _⟩ => ⟨S1x8x8x1024x64, .f32⟩
  | .hbm, ⟨10, _⟩ => ⟨S8x8x1024x64, .f32⟩
  | .hbm, ⟨11, _⟩ => ⟨S1x8x8x1024x64, .f32⟩
  | .hbm, ⟨12, _⟩ => ⟨S8x8x1024x64, .f32⟩
  | .hbm, ⟨13, _⟩ => ⟨S1x8x8x1024x64, .f32⟩
  | .hbm, ⟨14, _⟩ => ⟨S8x8x1024x64, .f32⟩
  | .hbm, ⟨15, _⟩ => ⟨S8x8x1024x1024, .f32⟩
  | .hbm, ⟨16, _⟩ => ⟨S_, .f32⟩
  | .hbm, ⟨17, _⟩ => ⟨S8x8x1024x1024, .f32⟩
  | .hbm, ⟨18, _⟩ => ⟨S8x8x1024x1024, .f32⟩
  | .hbm, ⟨19, _⟩ => ⟨S_, .f32⟩
  | .hbm, ⟨20, _⟩ => ⟨S8x8x1024, .f32⟩
  | .hbm, ⟨21, _⟩ => ⟨S_, .f32⟩
  | .hbm, ⟨22, _⟩ => ⟨S8x8x1024, .f32⟩
  | .hbm, ⟨23, _⟩ => ⟨S8x8x1024, .f32⟩
  | .hbm, ⟨24, _⟩ => ⟨S8x8x1024x1, .f32⟩
  | .hbm, ⟨25, _⟩ => ⟨S8x8x1024x1024, .f32⟩
  | .hbm, ⟨26, _⟩ => ⟨S8x8x1024x1024, .f32⟩
  | .hbm, ⟨27, _⟩ => ⟨S8x8x1024x1024, .f32⟩
  | .hbm, ⟨28, _⟩ => ⟨S_, .f32⟩
  | .hbm, ⟨29, _⟩ => ⟨S8x8x1024, .f32⟩
  | .hbm, ⟨30, _⟩ => ⟨S8x8x1024x1, .f32⟩
  | .hbm, ⟨31, _⟩ => ⟨S8x8x1024x1024, .f32⟩
  | .hbm, ⟨32, _⟩ => ⟨S8x8x1024x1024, .f32⟩
  | .hbm, ⟨33, _⟩ => ⟨S8x8x1024x64, .f32⟩
  | .hbm, ⟨34, _⟩ => ⟨S8x1024x8x64, .f32⟩
  | .hbm, ⟨35, _⟩ => ⟨S8x1024x512, .f32⟩
  | .hbm, ⟨36, _⟩ => ⟨S8x1024x512, .f32⟩
  | .hbm, ⟨37, _⟩ => ⟨S1x1x512, .f32⟩
  | .hbm, ⟨38, _⟩ => ⟨S8x1024x512, .f32⟩
  | .hbm, ⟨39, _⟩ => ⟨S8x1024x512, .f32⟩
  | .hbm, ⟨40, _⟩ => ⟨S8x32x32x512, .f32⟩
  | .hbm, ⟨41, _⟩ => ⟨S8x512x32x32, .f32⟩
  | _, _ => ⟨S8x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  transposes_S8x512x32x32_S8x32x32x512_0_2_3_1 : S8x512x32x32.Transposes [0, 2, 3, 1] S8x32x32x512
  shapeCasts_S8x32x32x512_S8x1024x512 : S8x32x32x512.ShapeCasts S8x1024x512
  shapeCasts_S8x1024x1536_S8x1024x3x8x64 : S8x1024x1536.ShapeCasts S8x1024x3x8x64
  transposes_S8x1024x3x8x64_S3x8x8x1024x64_2_0_3_1_4 : S8x1024x3x8x64.Transposes [2, 0, 3, 1, 4] S3x8x8x1024x64
  slices_S3x8x8x1024x64_S1x8x8x1024x64_0_0_0_0_0 : S3x8x8x1024x64.Slices ![0, 0, 0, 0, 0] S1x8x8x1024x64
  shapeCasts_S1x8x8x1024x64_S8x8x1024x64 : S1x8x8x1024x64.ShapeCasts S8x8x1024x64
  slices_S3x8x8x1024x64_S1x8x8x1024x64_1_0_0_0_0 : S3x8x8x1024x64.Slices ![1, 0, 0, 0, 0] S1x8x8x1024x64
  slices_S3x8x8x1024x64_S1x8x8x1024x64_2_0_0_0_0 : S3x8x8x1024x64.Slices ![2, 0, 0, 0, 0] S1x8x8x1024x64
  bcast_S_S8x8x1024x1024 : S_.BroadcastsInDim S8x8x1024x1024 (![] : Fin 0 → Fin S8x8x1024x1024.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x64_S8x1024x8x64_0_2_1_3 : S8x8x1024x64.Transposes [0, 2, 1, 3] S8x1024x8x64
  shapeCasts_S8x1024x8x64_S8x1024x512 : S8x1024x8x64.ShapeCasts S8x1024x512
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  shapeCasts_S8x1024x512_S8x32x32x512 : S8x1024x512.ShapeCasts S8x32x32x512
  transposes_S8x32x32x512_S8x512x32x32_0_3_1_2 : S8x32x32x512.Transposes [0, 3, 1, 2] S8x512x32x32
  dot_S8x1024x512_S1536x512_S8x1024x1536_2_1_01_0_n_n_wf : DotDims.WF S8x1024x512 S1536x512 S8x1024x1536 [2] [1] [0, 1] [0] [] []
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x64_S8x8x1024x64_3_2_2_3_01_01_wf : DotDims.WF S8x8x1024x1024 S8x8x1024x64 S8x8x1024x64 [3] [2] [2] [3] [0, 1] [0, 1]
  dot_S8x1024x512_S512x512_S8x1024x512_2_1_01_0_n_n_wf : DotDims.WF S8x1024x512 S512x512 S8x1024x512 [2] [1] [0, 1] [0] [] []

variable [Facts₀]

def dot_S8x1024x512_S1536x512_S8x1024x1536_2_1_01_0_n_n : DotDims S8x1024x512 S1536x512 S8x1024x1536 where
  lhsContracting := [2]
  rhsContracting := [1]
  lhsNonContracting := [0, 1]
  rhsNonContracting := [0]
  lhsBatch := []
  rhsBatch := []
  wf := dot_S8x1024x512_S1536x512_S8x1024x1536_2_1_01_0_n_n_wf
def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf
def dot_S8x1024x512_S512x512_S8x1024x512_2_1_01_0_n_n : DotDims S8x1024x512 S512x512 S8x1024x512 where
  lhsContracting := [2]
  rhsContracting := [1]
  lhsNonContracting := [0, 1]
  rhsNonContracting := [0]
  lhsBatch := []
  rhsBatch := []
  wf := dot_S8x1024x512_S512x512_S8x1024x512_2_1_01_0_n_n_wf

class Facts : Prop extends Facts₀ where

variable [Facts]
-- ==== Proof.AttnSpec.lean ====
/-
  Multi-head self-attention over one batch element, as one function of the arrays, coordinate by coordinate.

  X is a [512, 1024] matrix of inputs (channel c, position s), W the [1536, 512] matrix of the three stacked projections
  (queries in rows 0–511, keys in rows 512–1023, values in rows 1024–1535; within each, head h owns rows 64·h … 64·h + 63),
  Wo the [512, 512] output projection and b its bias.

    proj r s      = Σ_c W r c · X c s                                   (row r of the stacked projections)
    score h q k   = (Σ_d proj (q-row h d) q · proj (k-row h d) k) · 1/8  (1/8 = 1/√64, an exact binary fraction)
    softmax f k   = exp (f k − max f) / Σ_c exp (f c − max f)            (the maximum folded from −∞)
    head h d s    = Σ_k softmax (score h s) k · proj (v-row h d) k
    out o s       = (Σ_c Wo o c · head (c / 64) (c % 64) s) + b o

  Everything is an extended real and every operation is the exact one, so the only laws a comparison with another
  arrangement of the same computation can need are laws of the extended reals.
-/
import Idealize.ShloMosaic.PureOps.Ideal
import Idealize.ShloMosaic.Lib.ValueIdx

noncomputable section

open scoped BigOperators

namespace Cert.Attn

open Idealize.ShloMosaic

/-- Row of the stacked projection matrix: block j (0 queries, 1 keys, 2 values), head h, feature d. -/
def row (j : Fin 3) (h : Fin 8) (d : Fin 64) : Fin 1536 :=
  ⟨j.val * 512 + h.val * 64 + d.val, by have := j.isLt; have := h.isLt; have := d.isLt; omega⟩

/-- The head that owns channel c, and c's place inside it. -/
def headOf (c : Fin 512) : Fin 8 := ⟨c.val / 64, by have := c.isLt; omega⟩
def featOf (c : Fin 512) : Fin 64 := ⟨c.val % 64, Nat.mod_lt _ (by norm_num)⟩

/-- The maximum of a row of 1024 scores, folded from −∞ (the f32 word of minus infinity). -/
def rowMax (f : Fin 1024 → EReal) : EReal :=
  (Finset.univ : Finset (Fin 1024)).fold max (Ideal.ofBits .f32 0xFF800000#32) f

/-- The softmax of a row of 1024 scores, at position k. -/
def softmax (f : Fin 1024 → EReal) (k : Fin 1024) : EReal :=
  Ideal.div (Ideal.exp (f k - rowMax f)) (∑ c : Fin 1024, Ideal.exp (f c - rowMax f))

section
variable (W : Fin 1536 → Fin 512 → EReal) (X : Fin 512 → Fin 1024 → EReal)

/-- Row r of the stacked projections at position s. -/
def proj (r : Fin 1536) (s : Fin 1024) : EReal := ∑ c : Fin 512, W r c * X c s

/-- The scaled score of query position q against key position k in head h; the scale is the f32 word of 1/8. -/
def score (h : Fin 8) (q k : Fin 1024) : EReal :=
  (∑ d : Fin 64, proj W X (row 0 h d) q * proj W X (row 1 h d) k) * Ideal.ofBits .f32 0x3E000000#32

/-- Feature d of head h's attention output at position s. -/
def head (h : Fin 8) (d : Fin 64) (s : Fin 1024) : EReal :=
  ∑ k : Fin 1024, softmax (score W X h s) k * proj W X (row 2 h d) k

/-- The attention output before the output projection, by channel. -/
def attnRow (c : Fin 512) (s : Fin 1024) : EReal := head W X (headOf c) (featOf c) s

/-- The projected output with its bias: channel o at position s. -/
def out (Wo : Fin 512 → Fin 512 → EReal) (b : Fin 512 → EReal) (o : Fin 512) (s : Fin 1024) : EReal :=
  (∑ c : Fin 512, Wo o c * attnRow W X c s) + b o

end

/-! ## The whole arrays

  The input is an [8, 512, 32, 32] array (batch n, channel c, image row, image column); a position s of a batch element is
  the pixel (s / 32, s % 32), the image flattened row by row. -/

/-- The position of pixel (hh, ww). -/
def pos (hh ww : Fin 32) : Fin 1024 := ⟨hh.val * 32 + ww.val, by have := hh.isLt; have := ww.isLt; omega⟩
/-- The image row and column of a position. -/
def posRow (s : Fin 1024) : Fin 32 := ⟨s.val / 32, by have := s.isLt; omega⟩
def posCol (s : Fin 1024) : Fin 32 := ⟨s.val % 32, Nat.mod_lt _ (by norm_num)⟩

theorem posRow_pos (hh ww : Fin 32) : posRow (pos hh ww) = hh := Fin.ext (by
  have := hh.isLt; have := ww.isLt; show (hh.val * 32 + ww.val) / 32 = hh.val; omega)
theorem posCol_pos (hh ww : Fin 32) : posCol (pos hh ww) = ww := Fin.ext (by
  have := hh.isLt; have := ww.isLt; show (hh.val * 32 + ww.val) % 32 = ww.val; omega)
theorem pos_posRow_posCol (s : Fin 1024) : pos (posRow s) (posCol s) = s := Fin.ext (by
  show s.val / 32 * 32 + s.val % 32 = s.val; omega)

open Idealize.ShloMosaic.ValueIdx in
/-- Batch element n's output, channel o at position s, from the four argument arrays. -/
def result (x : (⟨4, ![8, 512, 32, 32]⟩ : Shape).Idx → EReal) (w : (⟨2, ![1536, 512]⟩ : Shape).Idx → EReal)
    (wo : (⟨2, ![512, 512]⟩ : Shape).Idx → EReal) (b : (⟨1, ![512]⟩ : Shape).Idx → EReal)
    (n : Fin 8) (o : Fin 512) (s : Fin 1024) : EReal :=
  out (fun r c => w (ix2 r c)) (fun c s' => x (ix4 n c (posRow s') (posCol s')))
    (fun o' c => wo (ix2 o' c)) (fun o' => b (ix1 o')) o s

/-- The result array: at (n, o, hh, ww), batch element n's output channel o at the position of pixel (hh, ww). -/
def resultArray (x : (⟨4, ![8, 512, 32, 32]⟩ : Shape).Idx → EReal) (w : (⟨2, ![1536, 512]⟩ : Shape).Idx → EReal)
    (wo : (⟨2, ![512, 512]⟩ : Shape).Idx → EReal) (b : (⟨1, ![512]⟩ : Shape).Idx → EReal) :
    (⟨4, ![8, 512, 32, 32]⟩ : Shape).Idx → EReal :=
  fun i => result x w wo b (i 0) (i 1) (pos (i 2) (i 3))

end Cert.Attn

end
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.KernelPayloads.lean ====
/-
  The arithmetic of the kernel's stores, read at explicit coordinates over the extended reals.

  The kernel body makes five kinds of store. Three whole-buffer stores hold the query, key and value projections: row e
  of a 512-row block W of the stacked weight matrix against the [512, 1024] input X, that is Σ_c W e c · X c s. One store
  per head holds that head's attention output for its 64 rows: with q, k, v the head's 64 rows of the three projections,
  entry (d, s) is Σ_k' softmax(score s ·) k' · v d k', where score s c = (Σ_d' q d' s · k d' c) · 1/8 and the softmax is
  the maximum-shifted one of the specification. The last store is the output projection of the assembled [512, 1024]
  attention matrix A with its bias column: Σ_c Wo o c · A c s + b o.

  The transposes the kernel forms (of q, of v, of the head's output) only exchange the two coordinates, the casts between
  equal shapes are the identity, a change of float format is the identity on extended reals, and a matrix product into
  the zero tile is the plain sum over the contracted coordinate.
-/
import proofs.«154232_j90744069030316_2_alg».proof.Proof.Gen.KernelIdeal.Skeleton
import proofs.«154232_j90744069030316_2_alg».proof.Proof.AttnSpec
import proofs.«154232_j90744069030316_2_alg».proof.Proof.LibIx2
import Idealize.ShloMosaic.Lib.ValueLayout
import Idealize.ShloMosaic.Lib.ValueIdx
import Idealize.ShloMosaic.Lib.Pipeline.Value

noncomputable section

open scoped BigOperators

namespace Cert.KernelIdeal.Payloads

open Cert.KernelIdeal Cert.KernelIdeal.Gen Idealize.ShloMosaic Idealize.ShloMosaic.ValueIdx

/-- The input block with its leading unit axis dropped and its format changed: entry (c, s) is the block's (0, c, s). -/
theorem input_apply (x0 : FVec Ideal S1x512x1024 .f32) (c : Fin 512) (s : Fin 1024) :
    k0_pay2 (F := Ideal) x0 (ix2 c s) = x0 (ix3 (0 : Fin 1) c s) := by
  unfold k0_pay2
  exact shapeCast_1ab_ab_apply x0 shapeCasts_S1x512x1024_S512x1024 c s

/-- One projection: a 512-row block of the weights against the input, at (e, s). -/
theorem projection_apply (w : FVec Ideal S512x512 .bf16) (x0 : FVec Ideal S1x512x1024 .f32) (e : Fin 512) (s : Fin 1024) :
    (shapeCast S512x1024 (truncf .bf16 (matmul dot_S512x512_S512x1024_S512x1024_1_0_0_1_n_n none
        (shapeCast S512x512 w shapeCasts_S512x512_S512x512) (k0_pay2 (F := Ideal) x0) (constant S512x1024 .f32 0x00000000#32))
        bitsLt_bf16_f32) shapeCasts_S512x1024_S512x1024 : FVec Ideal S512x1024 .bf16) (ix2 e s)
      = ∑ c : Fin 512, w (ix2 e c) * x0 (ix3 (0 : Fin 1) c s) := by
  rw [shapeCast_self, shapeCast_self]
  refine (Cert.LibIx2.matmul_zero_ix2_apply dot_S512x512_S512x1024_S512x1024_1_0_0_1_n_n rfl rfl rfl rfl rfl rfl rfl rfl none
    w (k0_pay2 (F := Ideal) x0) e s).trans ?_
  exact Finset.sum_congr rfl fun c _ => congrArg (w (ix2 e c) * ·) (input_apply x0 c s)

theorem queries_apply (x0 : FVec Ideal S1x512x1024 .f32) (w : FVec Ideal S512x512 .bf16) (e : Fin 512) (s : Fin 1024) :
    k0_pay3 (F := Ideal) x0 w (ix2 e s) = ∑ c : Fin 512, w (ix2 e c) * x0 (ix3 (0 : Fin 1) c s) := by
  unfold k0_pay3; exact projection_apply w x0 e s

theorem keys_apply (x0 : FVec Ideal S1x512x1024 .f32) (w : FVec Ideal S512x512 .bf16) (e : Fin 512) (s : Fin 1024) :
    k0_pay4 (F := Ideal) x0 w (ix2 e s) = ∑ c : Fin 512, w (ix2 e c) * x0 (ix3 (0 : Fin 1) c s) := by
  unfold k0_pay4; exact projection_apply w x0 e s

theorem values_apply (x0 : FVec Ideal S1x512x1024 .f32) (w : FVec Ideal S512x512 .bf16) (e : Fin 512) (s : Fin 1024) :
    k0_pay5 (F := Ideal) x0 w (ix2 e s) = ∑ c : Fin 512, w (ix2 e c) * x0 (ix3 (0 : Fin 1) c s) := by
  unfold k0_pay5; exact projection_apply w x0 e s

/-- The output projection's weights pass through a cast between equal shapes. -/
theorem outWeights_eq (w : FVec Ideal S512x512 .bf16) : k0_pay7 (F := Ideal) w = w := by
  unfold k0_pay7; exact shapeCast_self _ _

/-! ## One head -/

/-- The scaled score of position s against position c from a head's 64 query rows q and key rows k. -/
def headScore (q k : FVec Ideal S64x1024 .bf16) (s c : Fin 1024) : EReal :=
  (∑ d : Fin 64, q (ix2 d s) * k (ix2 d c)) * Ideal.ofBits .f32 0x3E000000#32

/-- The scores: the transposed queries against the keys, scaled. -/
theorem score_apply (q k : FVec Ideal S64x1024 .bf16) (s c : Fin 1024) :
    (mulf (matmul dot_S1024x64_S64x1024_S1024x1024_1_0_0_1_n_n none
        (transpose S1024x64 [1, 0] q transposes_S64x1024_p1_0_S1024x64) k (constant S1024x1024 .f32 0x00000000#32))
      (broadcast S1024x1024 (Scalar.ofBits .f32 0x3E000000#32)) : FVec Ideal S1024x1024 .f32) (ix2 s c) = headScore q k s c := by
  show (matmul dot_S1024x64_S64x1024_S1024x1024_1_0_0_1_n_n none
        (transpose S1024x64 [1, 0] q transposes_S64x1024_p1_0_S1024x64) k (constant S1024x1024 .f32 0x00000000#32) : FVec Ideal S1024x1024 .f32) (ix2 s c)
      * Ideal.ofBits .f32 0x3E000000#32 = _
  unfold headScore
  refine congrArg (· * Ideal.ofBits .f32 0x3E000000#32) ?_
  refine (Cert.LibIx2.matmul_zero_ix2_apply dot_S1024x64_S64x1024_S1024x1024_1_0_0_1_n_n rfl rfl rfl rfl rfl rfl rfl rfl none
    (transpose S1024x64 [1, 0] q transposes_S64x1024_p1_0_S1024x64) k s c).trans ?_
  exact Finset.sum_congr rfl fun d _ => congrArg (· * k (ix2 d c)) (transpose_ix2_apply q transposes_S64x1024_p1_0_S1024x64 s d)

/-- The row maximum, recast as a column and repeated along the lanes. -/
def rowMaxTile (z : FVec Ideal S1024x1024 .f32) : FVec Ideal S1024x1024 .f32 :=
  broadcastTo S1024x1024 (shapeCast S1024x1 (multiReduction .maximumf [1] S1024 z 0xFF800000#32 reduces_S1024x1024_S1024 (.inl rfl) rfl)
    shapeCasts_S1024_S1024x1) broadcasts_S1024x1_S1024x1024

theorem rowMaxTile_apply (z : FVec Ideal S1024x1024 .f32) (s c : Fin 1024) :
    rowMaxTile z (ix2 s c) = Cert.Attn.rowMax (fun c' => z (ix2 s c')) := by
  unfold rowMaxTile
  refine (Cert.LibIx2.broadcastTo_a1_ab_apply _ broadcasts_S1024x1_S1024x1024 s c).trans ?_
  refine (Cert.LibIx2.shapeCast_a_a1_apply _ shapeCasts_S1024_S1024x1 s (0 : Fin 1)).trans ?_
  exact Cert.LibIx2.multiReduction_maximumf_lanes_apply z 0xFF800000#32 reduces_S1024x1024_S1024 (.inl rfl) rfl s

/-- The shifted exponentials. -/
def expTile (z : FVec Ideal S1024x1024 .f32) : FVec Ideal S1024x1024 .f32 := exp (subf z (rowMaxTile z))

theorem expTile_apply (z : FVec Ideal S1024x1024 .f32) (s c : Fin 1024) :
    expTile z (ix2 s c) = Ideal.exp (z (ix2 s c) - Cert.Attn.rowMax (fun c' => z (ix2 s c'))) := by
  show Ideal.exp (z (ix2 s c) - rowMaxTile z (ix2 s c)) = _
  rw [rowMaxTile_apply]

/-- The softmax of a score tile, row by row. -/
theorem softmax_apply (z : FVec Ideal S1024x1024 .f32) (s c : Fin 1024) :
    (divf (expTile z) (broadcastTo S1024x1024 (shapeCast S1024x1 (multiReduction .add [1] S1024 (expTile z) 0x00000000#32
        reduces_S1024x1024_S1024 (.inl rfl) rfl) shapeCasts_S1024_S1024x1) broadcasts_S1024x1_S1024x1024) : FVec Ideal S1024x1024 .f32) (ix2 s c)
      = Cert.Attn.softmax (fun c' => z (ix2 s c')) c := by
  show Ideal.div (expTile z (ix2 s c)) ((broadcastTo S1024x1024 (shapeCast S1024x1 (multiReduction .add [1] S1024 (expTile z) 0x00000000#32
        reduces_S1024x1024_S1024 (.inl rfl) rfl) shapeCasts_S1024_S1024x1) broadcasts_S1024x1_S1024x1024 : FVec Ideal S1024x1024 .f32) (ix2 s c)) = _
  unfold Cert.Attn.softmax
  have hsum : (broadcastTo S1024x1024 (shapeCast S1024x1 (multiReduction .add [1] S1024 (expTile z) 0x00000000#32
        reduces_S1024x1024_S1024 (.inl rfl) rfl) shapeCasts_S1024_S1024x1) broadcasts_S1024x1_S1024x1024 : FVec Ideal S1024x1024 .f32) (ix2 s c)
      = ∑ c' : Fin 1024, Ideal.exp (z (ix2 s c') - Cert.Attn.rowMax (fun c'' => z (ix2 s c''))) := by
    refine (Cert.LibIx2.broadcastTo_a1_ab_apply _ broadcasts_S1024x1_S1024x1024 s c).trans ?_
    refine (Cert.LibIx2.shapeCast_a_a1_apply _ shapeCasts_S1024_S1024x1 s (0 : Fin 1)).trans ?_
    refine (Cert.LibIx2.multiReduction_add_lanes_apply (expTile z) 0x00000000#32 reduces_S1024x1024_S1024 (.inl rfl) rfl s).trans ?_
    exact Finset.sum_congr rfl fun c' _ => expTile_apply z s c'
  rw [hsum, expTile_apply]

/-- The head's output: the weights against the transposed values, transposed back. -/
theorem headOut_apply (p : FVec Ideal S1024x1024 .f32) (v : FVec Ideal S64x1024 .bf16) (d : Fin 64) (s : Fin 1024) :
    (shapeCast S64x1024 (transpose S64x1024 [1, 0] (truncf .bf16 (matmul dot_S1024x1024_S1024x64_S1024x64_1_0_0_1_n_n none
        (truncf .bf16 p bitsLt_bf16_f32) (transpose S1024x64 [1, 0] v transposes_S64x1024_p1_0_S1024x64) (constant S1024x64 .f32 0x00000000#32))
        bitsLt_bf16_f32) transposes_S1024x64_p1_0_S64x1024) shapeCasts_S64x1024_S64x1024 : FVec Ideal S64x1024 .bf16) (ix2 d s)
      = ∑ k' : Fin 1024, p (ix2 s k') * v (ix2 d k') := by
  rw [shapeCast_self]
  refine (transpose_ix2_apply _ transposes_S1024x64_p1_0_S64x1024 d s).trans ?_
  refine (Cert.LibIx2.matmul_zero_ix2_apply dot_S1024x1024_S1024x64_S1024x64_1_0_0_1_n_n rfl rfl rfl rfl rfl rfl rfl rfl none
    (truncf .bf16 p bitsLt_bf16_f32) (transpose S1024x64 [1, 0] v transposes_S64x1024_p1_0_S1024x64) s d).trans ?_
  exact Finset.sum_congr rfl fun k' _ => congrArg (p (ix2 s k') * ·) (transpose_ix2_apply v transposes_S64x1024_p1_0_S1024x64 k' d)

/-- One head's store: entry (d, s) is the softmax of position s's scores against the head's value row d. -/
theorem head_apply (q k v : FVec Ideal S64x1024 .bf16) (d : Fin 64) (s : Fin 1024) :
    k0_pay6 (F := Ideal) q k v (ix2 d s) = ∑ k' : Fin 1024, Cert.Attn.softmax (headScore q k s) k' * v (ix2 d k') := by
  unfold k0_pay6
  refine (headOut_apply _ v d s).trans ?_
  refine Finset.sum_congr rfl fun k' _ => congrArg (· * v (ix2 d k')) ?_
  refine (softmax_apply _ s k').trans ?_
  exact congrArg (fun f => Cert.Attn.softmax f k') (funext fun c => score_apply q k s c)

/-! ## The output projection -/

/-- The last store: the output weights against the attention matrix, plus the bias column, under a leading unit axis. -/
theorem output_apply (wo : FVec Ideal S512x512 .bf16) (a : FVec Ideal S512x1024 .bf16) (b : FVec Ideal S512x1 .f32)
    (u : Fin 1) (o : Fin 512) (s : Fin 1024) :
    k0_pay1 (F := Ideal) wo a (constant S512x1024 .f32 0x00000000#32) b (ix3 u o s)
      = (∑ c : Fin 512, wo (ix2 o c) * a (ix2 c s)) + b (ix2 o (0 : Fin 1)) := by
  unfold k0_pay1
  refine (shapeCast_ab_1ab_apply _ shapeCasts_S512x1024_S1x512x1024 u o s).trans ?_
  show (matmul dot_S512x512_S512x1024_S512x1024_1_0_0_1_n_n none wo a (constant S512x1024 .f32 0x00000000#32) : FVec Ideal S512x1024 .f32) (ix2 o s)
      + (broadcastTo S512x1024 (shapeCast S512x1 b shapeCasts_S512x1_S512x1) broadcasts_S512x1_S512x1024 : FVec Ideal S512x1024 .f32) (ix2 o s) = _
  refine congrArg₂ (· + ·) ?_ ?_
  · exact Cert.LibIx2.matmul_zero_ix2_apply dot_S512x512_S512x1024_S512x1024_1_0_0_1_n_n rfl rfl rfl rfl rfl rfl rfl rfl none wo a o s
  · refine (Cert.LibIx2.broadcastTo_a1_ab_apply _ broadcasts_S512x1_S512x1024 o (s : Fin 1024)).trans ?_
    rw [shapeCast_self]

end Cert.KernelIdeal.Payloads

end
-- ==== Proof.LibLoopPieces.lean ====
/-
  Stores made trip by trip by a counted loop, read as pieces of one function.

  A loop that stores into a buffer leaves a list of pieces (a rectangle of the buffer and the value stored through it),
  last store first. When the list before trip k + 1 is trip k's own pieces in front of the list before trip k, and every
  trip's pieces are pieces of ONE function G of the buffer's index (a piece's value at its own index x is G at the
  place x has in the buffer), then so are all the pieces of the trips below any n up to the trip count: by induction on
  n, one trip at a time, whatever the trip count. With the library's lemma on the contents a list of such pieces
  leaves, the buffer holds G wherever some store of the loop covers.
-/
import Idealize.ShloMosaic.Lib.Pipeline.Value

noncomputable section

namespace Cert.LoopPieces

open Idealize.ShloMosaic

variable {Val : EltTy → Type} {S : Shape} {e : EltTy}

/-- Let `pb n` be the pieces of the trips below n of a loop of N trips: none before the first trip (`h0`), and trip k's
    pieces `tripL k` in front of the earlier ones (`hsucc`). If every trip's pieces are pieces of G (`htrip`), every piece
    of the trips below n is a piece of G, for every n up to N. -/
theorem pieces_of_trips (G : S.Idx → Val e) {N : ℕ} (pb : ℕ → List (View.Piece Val S e))
    (tripL : Fin N → List (View.Piece Val S e)) (h0 : pb 0 = [])
    (hsucc : ∀ k : Fin N, pb (k.val + 1) = tripL k ++ pb k.val)
    (htrip : ∀ k : Fin N, ∀ p ∈ tripL k, ∀ x : p.1.shape.Idx, p.2 x = G (p.1.emb x)) :
    ∀ n : ℕ, n ≤ N → ∀ p ∈ pb n, ∀ x : p.1.shape.Idx, p.2 x = G (p.1.emb x)
  | 0, _ => fun p hp => absurd hp (by rw [h0]; exact List.not_mem_nil)
  | n + 1, hn => fun p hp => by
    have hs : pb (n + 1) = tripL ⟨n, hn⟩ ++ pb n := hsucc ⟨n, hn⟩
    rw [hs] at hp
    rcases List.mem_append.mp hp with h | h
    · exact htrip ⟨n, hn⟩ p h
    · exact pieces_of_trips G pb tripL h0 hsucc htrip n (Nat.le_of_lt hn) p h

/-- So after the whole loop the buffer holds G at every index some store of the loop covers. -/
theorem canon_of_trips [∀ e, Nonempty (Val e)] (G : S.Idx → Val e) {N : ℕ} (pb : ℕ → List (View.Piece Val S e))
    (tripL : Fin N → List (View.Piece Val S e)) (h0 : pb 0 = [])
    (hsucc : ∀ k : Fin N, pb (k.val + 1) = tripL k ++ pb k.val)
    (htrip : ∀ k : Fin N, ∀ p ∈ tripL k, ∀ x : p.1.shape.Idx, p.2 x = G (p.1.emb x))
    (y : S.Idx) (hy : ∃ p ∈ pb N, y ∈ p.1.set) : View.canon (pb N) y = G y :=
  View.canon_apply_of_pieces G (pb N) (pieces_of_trips G pb tripL h0 hsucc htrip N (Nat.le_refl N)) y hy

end Cert.LoopPieces

end
-- ==== Proof.KernelBlock.lean ====
/-
  What one grid point leaves in its output block, as the specification's function of the point's four input blocks.

  The body first stores the three projections Q, K, V of the input whole into three scratch buffers. Its loop then runs
  over the eight heads: trip h loads rows 64·h … 64·h + 63 of Q, K and V (a slab of each buffer) and stores that head's
  attention output into the same rows of a fourth buffer. The eight slabs tile the fourth buffer, and each trip's store is a
  piece of ONE function of the buffer's index — channel c = 64·h + d, position s ↦ the attention output of head h, feature d,
  at s —, so after the loop the buffer holds that function whatever it held before. The last store is the output
  projection of that buffer plus the bias.
-/
import proofs.«154232_j90744069030316_2_alg».proof.Proof.KernelIdealFrame
import proofs.«154232_j90744069030316_2_alg».proof.Proof.KernelPayloads
import proofs.«154232_j90744069030316_2_alg».proof.Proof.LibLoopPieces
import Idealize.ShloMosaic.Lib.Pipeline.Value
import Idealize.ShloMosaic.Lib.Tactic

set_option maxRecDepth 16384

noncomputable section

open scoped BigOperators

namespace Cert.KernelIdeal.Block

open Cert.KernelIdeal Cert.KernelIdeal.Gen Cert.KernelIdeal.GenP Cert.KernelIdeal.Payloads
open Idealize.ShloMosaic Idealize.ShloMosaic.TcCoe Idealize.SL.Sem Idealize.ShloMosaic.ValueIdx Idealize.ShloMosaic.Tactic

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- The loop has eight trips at most (it has exactly eight; the bound is what the coordinates need). -/
theorem trip_lt (k : Fin k0_t1_loop.trips) : k.val < 8 := Nat.lt_of_lt_of_le k.isLt k0_t1_abs.2.1

/-- The 64 rows of a [512, 1024] buffer that trip k reads and writes. -/
abbrev slab (k : Fin k0_t1_loop.trips) : Rect S512x1024 :=
  Rect.unit (s := S512x1024) (k0_off1 k) S64x1024.size (k0_off1_inb k)

/-- Row d, position s of trip k's slab is row 64·k + d of the buffer. -/
theorem slab_emb (k : Fin k0_t1_loop.trips) (d : Fin 64) (s : Fin 1024) :
    (slab k).emb (ix2 d s) = ix2 (⟨64 * k.val + d.val, by have := trip_lt k; have := d.isLt; omega⟩ : Fin 512) s :=
  funext fun a => Fin.ext (by
    match a with
    | ⟨0, _⟩ =>
      show (k0_off1 k) 0 + 1 * d.val = 64 * k.val + d.val
      rw [k0_off1_eq k]
      show 64 * k.val + 1 * d.val = 64 * k.val + d.val
      omega
    | ⟨1, _⟩ =>
      show (k0_off1 k) 1 + 1 * s.val = s.val
      rw [k0_off1_eq k]
      show 0 + 1 * s.val = s.val
      omega)

/-- One trip stores ONE piece: through its slab, the head's output computed from the three slab loads. -/
theorem tripL_eq (c : Dev nD) (i : grid0.Coords) (arg1 : Memref sig .tc .vmem S1x512x1024 .f32) (harg1 : arg1.IsWhole) (arg2 : Memref sig .tc .vmem S1536x512 .bf16) (harg2 : arg2.IsWhole) (arg3 : Memref sig .tc .vmem S512x512 .bf16) (harg3 : arg3.IsWhole) (arg4 : Memref sig .tc .vmem S512x1 .f32) (harg4 : arg4.IsWhole) (arg5 : Memref sig .tc .vmem S1x512x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole)
    (X6 : BufTy.Contents (Elt Ideal) arg6.view.ty) (X7 : BufTy.Contents (Elt Ideal) arg7.view.ty) (X8 : BufTy.Contents (Elt Ideal) arg8.view.ty)
    (k : Fin k0_t1_loop.trips) :
    tripL_k0_t1 (F := Ideal) Variants.none c none i arg1 harg1 arg2 harg2 arg3 harg3 arg4 harg4 arg5 harg5 arg6 harg6 arg7 harg7 arg8 harg8 arg9 harg9 X6 X7 X8 k
      = [⟨slab k, k0_pay6 (View.readAt (Elt Ideal) arg6.view (slab k).toLoadRect X6)
            (View.readAt (Elt Ideal) arg7.view (slab k).toLoadRect X7) (View.readAt (Elt Ideal) arg8.view (slab k).toLoadRect X8)⟩] := by
  unfold tripL_k0_t1 trip_k0_t1
  rfl

/-- A load through any rectangle, after ONE store of the whole buffer, reads the stored value through that rectangle. -/
theorem readAt_after_whole_store (v : View sig .tc .vmem S512x1024 .bf16) (f : v.ty.Contents (Elt Ideal))
    (Q : S512x1024.Idx → Elt Ideal .bf16) (r : Rect S512x1024) :
    View.readAt (Elt Ideal) v r.toLoadRect (v.writes (Elt Ideal) f
        [(⟨Rect.unit (s := S512x1024) ![0, 0] S512x1024.size inb_S512x1024_S512x1024_0_0, Q⟩ : View.Piece (Elt Ideal) S512x1024 .bf16)])
      = View.ld (Val := Elt Ideal) (e' := EltTy.bf16) Q r := by
  rw [View.readAt_eq_ld, View.read_writes_eq_canon _ _ _ (fun y => ⟨_, List.mem_singleton_self _, View.mem_set_unit_zero hz2 inb_S512x1024_S512x1024_0_0 y⟩),
    View.canon_unit_zero hz2]

/-! ## The attention output as one function of the buffer's index -/

/-- Channel 64·h + d. -/
def chan (h : Fin 8) (d : Fin 64) : Fin 512 := ⟨64 * h.val + d.val, by have := h.isLt; have := d.isLt; omega⟩

/-- The attention output at channel c, position s, from the three projections as [512, 1024] matrices. -/
def attnOf (Q K V : FVec Ideal S512x1024 .bf16) (c : Fin 512) (s : Fin 1024) : EReal :=
  ∑ k' : Fin 1024, Cert.Attn.softmax (fun c' => (∑ d' : Fin 64, Q (ix2 (chan (Cert.Attn.headOf c) d') s) * K (ix2 (chan (Cert.Attn.headOf c) d') c'))
      * Ideal.ofBits .f32 0x3E000000#32) k' * V (ix2 c k')

/-- A [512, 1024] buffer read through trip k's slab: its 64 rows from 64·k. -/
abbrev slabOf (X : FVec Ideal S512x1024 .bf16) (k : Fin k0_t1_loop.trips) : FVec Ideal S64x1024 .bf16 :=
  View.ld (Val := Elt Ideal) (e' := EltTy.bf16) X (slab k)

/-- A buffer read through trip k's slab at (d, s) is the buffer at row 64·k + d. -/
theorem ld_slab (X : FVec Ideal S512x1024 .bf16) (k : Fin k0_t1_loop.trips) (d : Fin 64) (s : Fin 1024) :
    slabOf X k (ix2 d s)
      = X (ix2 (⟨64 * k.val + d.val, by have := trip_lt k; have := d.isLt; omega⟩ : Fin 512) s) :=
  congrArg X (slab_emb k d s)

/-- Trip k's piece is a piece of that function: at (d, s) it is the attention output at channel 64·k + d. -/
theorem trip_piece (Q K V : FVec Ideal S512x1024 .bf16) (k : Fin k0_t1_loop.trips) (d : Fin 64) (s : Fin 1024) :
    k0_pay6 (F := Ideal) (slabOf Q k) (slabOf K k) (slabOf V k) (ix2 d s)
      = attnOf Q K V (⟨64 * k.val + d.val, by have := trip_lt k; have := d.isLt; omega⟩ : Fin 512) s := by
  refine (head_apply (slabOf Q k) (slabOf K k) (slabOf V k) d s).trans ?_
  have hk := trip_lt k
  have hd := d.isLt
  have hh : Cert.Attn.headOf (⟨64 * k.val + d.val, by omega⟩ : Fin 512) = (⟨k.val, hk⟩ : Fin 8) :=
    Fin.ext (by show (64 * k.val + d.val) / 64 = k.val; omega)
  unfold attnOf
  rw [hh]
  refine Finset.sum_congr rfl fun k' _ => ?_
  rw [ld_slab V k d k']
  refine congrArg (· * V (ix2 (⟨64 * k.val + d.val, by omega⟩ : Fin 512) k')) ?_
  refine congrArg (fun f => Cert.Attn.softmax f k') (funext fun c' => ?_)
  unfold headScore
  refine congrArg (· * Ideal.ofBits .f32 0x3E000000#32) (Finset.sum_congr rfl fun d' _ => ?_)
  rw [ld_slab Q k d' s, ld_slab K k d' c']
  rfl

/-! ## The fourth buffer after the loop -/

/-- After the loop the fourth buffer, whatever it held before, holds the attention output of the three projections. -/
theorem attn_buffer_apply (c : Dev nD) (i : grid0.Coords) (arg1 : Memref sig .tc .vmem S1x512x1024 .f32) (harg1 : arg1.IsWhole) (arg2 : Memref sig .tc .vmem S1536x512 .bf16) (harg2 : arg2.IsWhole) (arg3 : Memref sig .tc .vmem S512x512 .bf16) (harg3 : arg3.IsWhole) (arg4 : Memref sig .tc .vmem S512x1 .f32) (harg4 : arg4.IsWhole) (arg5 : Memref sig .tc .vmem S1x512x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole)
    (f9 : arg9.view.ty.Contents (Elt Ideal)) (Q K V : FVec Ideal S512x1024 .bf16) (y : S512x1024.Idx) :
    arg9.view.read (Elt Ideal) (arg9.view.writes (Elt Ideal) f9
      (pb_k0_t1 (F := Ideal) Variants.none c none i arg1 harg1 arg2 harg2 arg3 harg3 arg4 harg4 arg5 harg5 arg6 harg6 arg7 harg7 arg8 harg8 arg9 harg9
        (arg6.view.writes (Elt Ideal) arg6.view.junk [(⟨Rect.unit (s := S512x1024) ![0, 0] S512x1024.size inb_S512x1024_S512x1024_0_0, Q⟩ : View.Piece (Elt Ideal) S512x1024 .bf16)])
        (arg7.view.writes (Elt Ideal) arg7.view.junk [(⟨Rect.unit (s := S512x1024) ![0, 0] S512x1024.size inb_S512x1024_S512x1024_0_0, K⟩ : View.Piece (Elt Ideal) S512x1024 .bf16)])
        (arg8.view.writes (Elt Ideal) arg8.view.junk [(⟨Rect.unit (s := S512x1024) ![0, 0] S512x1024.size inb_S512x1024_S512x1024_0_0, V⟩ : View.Piece (Elt Ideal) S512x1024 .bf16)])
        k0_t1_loop.trips)) y = attnOf Q K V (y 0) (y 1) := by
  refine View.read_writes_apply_of_pieces (v := arg9.view) (f := f9) (fun y => attnOf Q K V (y 0) (y 1)) _ ?_ y
    (View.cover_of_tiledL (s := S512x1024) _ S64x1024.size (by sl_kernel_rfl) y)
  refine Cert.LoopPieces.pieces_of_trips (fun y => attnOf Q K V (y 0) (y 1)) _
    (tripL_k0_t1 (F := Ideal) Variants.none c none i arg1 harg1 arg2 harg2 arg3 harg3 arg4 harg4 arg5 harg5 arg6 harg6 arg7 harg7 arg8 harg8 arg9 harg9 _ _ _) rfl
    (fun k => pb_k0_t1_succ (F := Ideal) Variants.none c none i arg1 harg1 arg2 harg2 arg3 harg3 arg4 harg4 arg5 harg5 arg6 harg6 arg7 harg7 arg8 harg8 arg9 harg9 _ _ _ k) ?_ k0_t1_loop.trips (Nat.le_refl _)
  intro k p hp x
  rw [tripL_eq] at hp
  obtain rfl := List.mem_singleton.mp hp
  obtain ⟨d, s, rfl⟩ : ∃ (d : Fin 64) (s : Fin 1024), x = ix2 d s := ⟨x 0, x 1, eq_ix2 x⟩
  show k0_pay6 (F := Ideal) _ _ _ (ix2 d s) = attnOf Q K V ((slab k).emb (ix2 d s) 0) ((slab k).emb (ix2 d s) 1)
  rw [slab_emb k d s, readAt_after_whole_store, readAt_after_whole_store, readAt_after_whole_store]
  exact trip_piece Q K V k d s

/-! ## The projections from the blocks -/

/-- The stacked weights and the input block as matrices over plain coordinates. -/
abbrev Wm (x1 : FVec Ideal S1536x512 .bf16) : Fin 1536 → Fin 512 → EReal := fun r c => x1 (ix2 r c)
abbrev Xb (x0 : FVec Ideal S1x512x1024 .f32) : Fin 512 → Fin 1024 → EReal := fun c s => x0 (ix3 (0 : Fin 1) c s)

/-- The 512-row block of the stacked weights that starts at row `off`. -/
abbrev weightBlock (x1 : FVec Ideal S1536x512 .bf16) (off : ℕ)
    (inb : ∀ a, (![off, 0] : Fin 2 → ℕ) a + S512x512.size a ≤ S1536x512.size a) : FVec Ideal S512x512 .bf16 :=
  View.ld (Val := Elt Ideal) (e' := EltTy.bf16) x1 (Rect.unit (s := S1536x512) ![off, 0] S512x512.size inb)

/-- That block at (e, c) is the weights' row off + e. -/
theorem weights_ld (x1 : FVec Ideal S1536x512 .bf16) (off : ℕ)
    (inb : ∀ a, (![off, 0] : Fin 2 → ℕ) a + S512x512.size a ≤ S1536x512.size a) (e c : Fin 512) (h : off + e.val < 1536) :
    weightBlock x1 off inb (ix2 e c)
      = x1 (ix2 (⟨off + e.val, h⟩ : Fin 1536) c) :=
  congrArg x1 (funext fun a => Fin.ext (by
    match a with
    | ⟨0, _⟩ => show off + 1 * e.val = off + e.val; omega
    | ⟨1, _⟩ => show 0 + 1 * c.val = c.val; omega))

/-- The sum over the channels of a weight row against the input block is the specification's projection. -/
theorem proj_of_block (x0 : FVec Ideal S1x512x1024 .f32) (x1 : FVec Ideal S1536x512 .bf16) (off : ℕ)
    (inb : ∀ a, (![off, 0] : Fin 2 → ℕ) a + S512x512.size a ≤ S1536x512.size a) (e : Fin 512) (s : Fin 1024) (h : off + e.val < 1536) :
    (∑ c : Fin 512, weightBlock x1 off inb (ix2 e c) * x0 (ix3 (0 : Fin 1) c s))
      = Cert.Attn.proj (Wm x1) (Xb x0) (⟨off + e.val, h⟩ : Fin 1536) s := by
  unfold Cert.Attn.proj
  exact Finset.sum_congr rfl fun c _ => congrArg (· * x0 (ix3 (0 : Fin 1) c s)) (weights_ld x1 off inb e c h)

/-- The attention output of the three stored projections is the specification's attention row. -/
theorem attnOf_eq (x0 : FVec Ideal S1x512x1024 .f32) (x1 : FVec Ideal S1536x512 .bf16) (c' : Fin 512) (s : Fin 1024) :
    attnOf (k0_pay3 (F := Ideal) x0 (weightBlock x1 0 inb_S1536x512_S512x512_0_0))
        (k0_pay4 (F := Ideal) x0 (weightBlock x1 512 inb_S1536x512_S512x512_512_0))
        (k0_pay5 (F := Ideal) x0 (weightBlock x1 1024 inb_S1536x512_S512x512_1024_0)) c' s
      = Cert.Attn.attnRow (Wm x1) (Xb x0) c' s := by
  have hc := c'.isLt
  unfold attnOf Cert.Attn.attnRow Cert.Attn.head
  refine Finset.sum_congr rfl fun k' _ => ?_
  have hV : k0_pay5 (F := Ideal) x0 (weightBlock x1 1024 inb_S1536x512_S512x512_1024_0) (ix2 c' k')
      = Cert.Attn.proj (Wm x1) (Xb x0) (Cert.Attn.row 2 (Cert.Attn.headOf c') (Cert.Attn.featOf c')) k' := by
    refine (values_apply x0 _ c' k').trans ?_
    refine (proj_of_block x0 x1 1024 inb_S1536x512_S512x512_1024_0 c' k' (by omega)).trans ?_
    refine congrArg (fun r => Cert.Attn.proj (Wm x1) (Xb x0) r k') (Fin.ext ?_)
    show 1024 + c'.val = 2 * 512 + c'.val / 64 * 64 + c'.val % 64
    omega
  rw [hV]
  refine congrArg (· * Cert.Attn.proj (Wm x1) (Xb x0) (Cert.Attn.row 2 (Cert.Attn.headOf c') (Cert.Attn.featOf c')) k') ?_
  refine congrArg (fun f => Cert.Attn.softmax f k') (funext fun cc => ?_)
  unfold Cert.Attn.score
  refine congrArg (· * Ideal.ofBits .f32 0x3E000000#32) (Finset.sum_congr rfl fun d' _ => ?_)
  have hd := d'.isLt
  have hh : (Cert.Attn.headOf c').val < 8 := (Cert.Attn.headOf c').isLt
  have hQ : k0_pay3 (F := Ideal) x0 (weightBlock x1 0 inb_S1536x512_S512x512_0_0) (ix2 (chan (Cert.Attn.headOf c') d') s)
      = Cert.Attn.proj (Wm x1) (Xb x0) (Cert.Attn.row 0 (Cert.Attn.headOf c') d') s := by
    refine (queries_apply x0 _ (chan (Cert.Attn.headOf c') d') s).trans ?_
    refine (proj_of_block x0 x1 0 inb_S1536x512_S512x512_0_0 (chan (Cert.Attn.headOf c') d') s (by have := (chan (Cert.Attn.headOf c') d').isLt; omega)).trans ?_
    refine congrArg (fun r => Cert.Attn.proj (Wm x1) (Xb x0) r s) (Fin.ext ?_)
    show 0 + (64 * (Cert.Attn.headOf c').val + d'.val) = 0 * 512 + (Cert.Attn.headOf c').val * 64 + d'.val
    omega
  have hK : k0_pay4 (F := Ideal) x0 (weightBlock x1 512 inb_S1536x512_S512x512_512_0) (ix2 (chan (Cert.Attn.headOf c') d') cc)
      = Cert.Attn.proj (Wm x1) (Xb x0) (Cert.Attn.row 1 (Cert.Attn.headOf c') d') cc := by
    refine (keys_apply x0 _ (chan (Cert.Attn.headOf c') d') cc).trans ?_
    refine (proj_of_block x0 x1 512 inb_S1536x512_S512x512_512_0 (chan (Cert.Attn.headOf c') d') cc (by have := (chan (Cert.Attn.headOf c') d').isLt; omega)).trans ?_
    refine congrArg (fun r => Cert.Attn.proj (Wm x1) (Xb x0) r cc) (Fin.ext ?_)
    show 512 + (64 * (Cert.Attn.headOf c').val + d'.val) = 1 * 512 + (Cert.Attn.headOf c').val * 64 + d'.val
    omega
  rw [hQ, hK]

/-! ## The block -/

/-- What one grid point leaves in its output block: the specification's output of the point's four input blocks. -/
theorem block_value (c : Dev nD) (i : grid0.Coords) (arg1 : Memref sig .tc .vmem S1x512x1024 .f32) (harg1 : arg1.IsWhole) (arg2 : Memref sig .tc .vmem S1536x512 .bf16) (harg2 : arg2.IsWhole) (arg3 : Memref sig .tc .vmem S512x512 .bf16) (harg3 : arg3.IsWhole) (arg4 : Memref sig .tc .vmem S512x1 .f32) (harg4 : arg4.IsWhole) (arg5 : Memref sig .tc .vmem S1x512x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole)
    (x0 : Vec Ideal S1x512x1024 .f32) (x1 : Vec Ideal S1536x512 .bf16) (x2 : Vec Ideal S512x512 .bf16) (x3 : Vec Ideal S512x1 .f32)
    (u : Fin 1) (o : Fin 512) (s : Fin 1024) :
    out0_A_4 (F := Ideal) c i arg1 harg1 arg2 harg2 arg3 harg3 arg4 harg4 arg5 harg5 arg6 harg6 arg7 harg7 arg8 harg8 arg9 harg9 x0 x1 x2 x3 (ix3 u o s)
      = Cert.Attn.out (fun r c' => x1 (ix2 r c')) (fun c' s' => x0 (ix3 (0 : Fin 1) c' s'))
          (fun o' c' => x2 (ix2 o' c')) (fun o' => x3 (ix2 o' (0 : Fin 1))) o s := by
  unfold out0_A_4
  rw [View.read_writes_eq_canon _ _ _ (cover0_A_4 (F := Ideal) c i arg1 harg1 arg2 harg2 arg3 harg3 arg4 harg4 arg5 harg5 arg6 harg6 arg7 harg7 arg8 harg8 arg9 harg9 x0 x1 x2 x3)]
  unfold kernelRun0_A
  dsimp only
  rw [View.canon_unit_zero hz3]
  simp only [View.readAt_eq_ld, harg1.read_unread, harg2.read_unread, harg3.read_unread, harg4.read_unread,
    View.ld_unit_zero (S := S1x512x1024) hz3, View.ld_unit_zero (S := S512x512) hz2, View.ld_unit_zero (S := S512x1024) hz2, View.ld_unit_zero (S := S512x1) hz2]
  rw [outWeights_eq]
  refine (output_apply x2 _ x3 u o s).trans ?_
  show (∑ c' : Fin 512, x2 (ix2 o c') * _) + x3 (ix2 o (0 : Fin 1))
      = (∑ c' : Fin 512, x2 (ix2 o c') * Cert.Attn.attnRow (Wm x1) (Xb x0) c' s) + x3 (ix2 o (0 : Fin 1))
  refine congrArg (· + x3 (ix2 o (0 : Fin 1))) (Finset.sum_congr rfl fun c' _ => congrArg (x2 (ix2 o c') * ·) ?_)
  refine (attn_buffer_apply c i arg1 harg1 arg2 harg2 arg3 harg3 arg4 harg4 arg5 harg5 arg6 harg6 arg7 harg7 arg8 harg8 arg9 harg9 arg9.view.junk _ _ _ (ix2 c' s)).trans ?_
  exact attnOf_eq x0 x1 c' s

/-- The same at grid point t, whose input blocks are the windows' blocks of the arrays as the region finds them. -/
theorem point_value (m : (ℓ : Loc nD τ sig) → Buf (Elt Ideal) ℓ) (c : Dev nD) (t : Fin cfg0.N) (u : Fin 1) (o : Fin 512) (s : Fin 1024) :
    outsAt0 (F := Ideal) m c t (ix3 u o s)
      = Cert.Attn.out (fun r c' => iblk m c 1 t (ix2 r c')) (fun c' s' => iblk m c 0 t (ix3 (0 : Fin 1) c' s'))
          (fun o' c' => iblk m c 2 t (ix2 o' c')) (fun o' => iblk m c 3 t (ix2 o' (0 : Fin 1))) o s := by
  unfold outsAt0
  exact block_value c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) u o s

end Cert.KernelIdeal.Block

end
-- ==== Proof.KernelBlocks.lean ====
/-
  What each window's block holds at a grid point, read off the argument arrays.

  Grid point t is batch element t. The input's block at point t is batch t of the input flattened over the pixels, so its
  entry (0, c, s) is the input at channel c of pixel (s / 32, s % 32). The two weight matrices and the bias are staged
  whole, so their blocks are the arrays themselves (the narrowing of the weights to a shorter float format is the
  identity on extended reals, and the bias's reshape to a column keeps its entries in order).
-/
import proofs.«154232_j90744069030316_2_alg».proof.Proof.KernelIdealFrame
import proofs.«154232_j90744069030316_2_alg».proof.Proof.AttnSpec
import Idealize.ShloMosaic.Lib.Pipeline.Value
import Idealize.ShloMosaic.Lib.ValueIdx
import Idealize.ShloMosaic.Lib.Tactic

noncomputable section

open scoped BigOperators

namespace Cert.KernelIdeal.ArrayValue

open Cert.KernelIdeal Cert.KernelIdeal.Gen Cert.KernelIdeal.GenP Idealize.ShloMosaic Idealize.ShloMosaic.TcCoe Idealize.SL.Sem
  Idealize.ShloMosaic.ValueIdx Idealize.ShloMosaic.StableHlo

variable (m : (ℓ : Loc nD τ sig) → Buf (Elt Ideal) ℓ)

/-- The batch element of a grid point: the grid has eight points, one per batch element. -/
def batchOf (t : Fin cfg0.N) : Fin 8 := ⟨t.val, by have hN : cfg0.N = 8 := N_0; have := t.isLt; omega⟩

/-! ## The arrays the region finds, from the arguments -/

/-- The flattened input at (n, c, s) is the input at channel c of pixel (s / 32, s % 32). -/
theorem V_v0_at (c : Dev nD) (n : Fin 8) (c' : Fin 512) (s : Fin 1024) :
    (V m c main_v0 : S8x512x1024.Idx → EReal) (ix3 n c' s)
      = (m ((c.tc : Thread nD τ).loc main_arg0) : S8x512x32x32.Idx → EReal) (ix4 n c' (Attn.posRow s) (Attn.posCol s)) := by
  have e : (V m c main_v0 : S8x512x1024.Idx → EReal)
      = shapeCast _ (m ((c.tc : Thread nD τ).loc main_arg0) : S8x512x32x32.Idx → EReal) shapeCasts_S8x512x32x32_S8x512x1024 := by
    show StableHlo.after hostOps0 (fun b => m (c, b)) (Proc.devRef .tc main_v0) = _
    after_results
    rfl
  rw [e]
  refine shapeCast_apply _ _ (ix3 n c' s) (ix4 n c' (Attn.posRow s) (Attn.posCol s)) ?_
  rewrite [Shape.rowMajor_val_four, Shape.rowMajor_val_three]
  have hn := n.isLt; have hc := c'.isLt; have hs := s.isLt
  show ((n.val * 512 + c'.val) * 32 + s.val / 32) * 32 + s.val % 32 = (n.val * 512 + c'.val) * 1024 + s.val
  omega

/-- The stacked projection matrix the region finds is the argument's (narrowing is the identity on extended reals). -/
theorem V_v1_at (c : Dev nD) (r : Fin 1536) (c' : Fin 512) :
    (V m c main_v1 : S1536x512.Idx → EReal) (ix2 r c')
      = (m ((c.tc : Thread nD τ).loc main_arg1) : S1536x512.Idx → EReal) (ix2 r c') := by
  have e : (V m c main_v1 : S1536x512.Idx → EReal) = (m ((c.tc : Thread nD τ).loc main_arg1) : S1536x512.Idx → EReal) := by
    show StableHlo.after hostOps0 (fun b => m (c, b)) (Proc.devRef .tc main_v1) = _
    after_results
    rfl
  rw [e]

/-- The output projection matrix the region finds is the argument's. -/
theorem V_v2_at (c : Dev nD) (o : Fin 512) (c' : Fin 512) :
    (V m c main_v2 : S512x512.Idx → EReal) (ix2 o c')
      = (m ((c.tc : Thread nD τ).loc main_arg2) : S512x512.Idx → EReal) (ix2 o c') := by
  have e : (V m c main_v2 : S512x512.Idx → EReal) = (m ((c.tc : Thread nD τ).loc main_arg2) : S512x512.Idx → EReal) := by
    show StableHlo.after hostOps0 (fun b => m (c, b)) (Proc.devRef .tc main_v2) = _
    after_results
    rfl
  rw [e]

/-- The bias column the region finds, at (o, 0), is entry o of the bias. -/
theorem V_v3_at (c : Dev nD) (o : Fin 512) (z : Fin 1) :
    (V m c main_v3 : S512x1.Idx → EReal) (ix2 o z)
      = (m ((c.tc : Thread nD τ).loc main_arg3) : S512.Idx → EReal) (ix1 o) := by
  have e : (V m c main_v3 : S512x1.Idx → EReal)
      = shapeCast _ (m ((c.tc : Thread nD τ).loc main_arg3) : S512.Idx → EReal) shapeCasts_S512_S512x1 := by
    show StableHlo.after hostOps0 (fun b => m (c, b)) (Proc.devRef .tc main_v3) = _
    after_results
    rfl
  rw [e]
  refine shapeCast_apply _ _ (ix2 o z) (ix1 o) ?_
  rewrite [Shape.rowMajor_val_one, Shape.rowMajor_val_two]
  have ho := o.isLt; have hz := z.isLt
  show o.val = o.val * 1 + z.val
  omega

/-! ## The block index maps, decided over the grid -/

/-- The input's and the output's blocks move with the batch coordinate; the other windows stay at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The blocks -/

/-- The input's block at point t, at (0, c, s), is the input of batch t at channel c of pixel (s / 32, s % 32). -/
theorem iblk0_at (c : Dev nD) (t : Fin cfg0.N) (u : Fin 1) (c' : Fin 512) (s : Fin 1024) :
    (iblk m c 0 t : Vec Ideal S1x512x1024 .f32) (ix3 u c' s)
      = (m ((c.tc : Thread nD τ).loc main_arg0) : S8x512x32x32.Idx → EReal) (ix4 (batchOf t) c' (Attn.posRow s) (Attn.posCol s)) := by
  obtain ⟨e0, e1, e2, -⟩ := idx_facts t
  rw [← V_v0_at m c (batchOf t) c' s]
  unfold iblk
  rw [View.read_apply]
  show V m c main_v0 (((cfg0.win 0).blk t).view.emb (ix3 u c' s)) = V m c main_v0 (ix3 (batchOf t) c' s)
  refine congrArg (V m c main_v0) (funext fun a => Fin.ext ?_)
  have hu := u.isLt
  match a with
  | ⟨0, _⟩ => show win0_0.index t (0 : Fin 3) * 1 + 1 * u.val = t.val; rw [e0]; omega
  | ⟨1, _⟩ => show win0_0.index t (1 : Fin 3) * 512 + 1 * c'.val = c'.val; rw [e1]; omega
  | ⟨2, _⟩ => show win0_0.index t (2 : Fin 3) * 1024 + 1 * s.val = s.val; rw [e2]; omega

/-- The stacked projection matrix's block is the whole matrix. -/
theorem iblk1_at (c : Dev nD) (t : Fin cfg0.N) (r : Fin 1536) (c' : Fin 512) :
    (iblk m c 1 t : Vec Ideal S1536x512 .bf16) (ix2 r c')
      = (m ((c.tc : Thread nD τ).loc main_arg1) : S1536x512.Idx → EReal) (ix2 r c') := by
  obtain ⟨-, -, -, e0, e1, -⟩ := idx_facts t
  rw [← V_v1_at m c r c']
  unfold iblk
  rw [View.read_apply]
  show V m c main_v1 (((cfg0.win 1).blk t).view.emb (ix2 r c')) = V m c main_v1 (ix2 r c')
  refine congrArg (V m c main_v1) (funext fun a => Fin.ext ?_)
  match a with
  | ⟨0, _⟩ => show win0_1.index t (0 : Fin 2) * 1536 + 1 * r.val = r.val; rw [e0]; omega
  | ⟨1, _⟩ => show win0_1.index t (1 : Fin 2) * 512 + 1 * c'.val = c'.val; rw [e1]; omega

/-- The output projection matrix's block is the whole matrix. -/
theorem iblk2_at (c : Dev nD) (t : Fin cfg0.N) (o : Fin 512) (c' : Fin 512) :
    (iblk m c 2 t : Vec Ideal S512x512 .bf16) (ix2 o c')
      = (m ((c.tc : Thread nD τ).loc main_arg2) : S512x512.Idx → EReal) (ix2 o c') := by
  obtain ⟨-, -, -, -, -, e0, e1, -⟩ := idx_facts t
  rw [← V_v2_at m c o c']
  unfold iblk
  rw [View.read_apply]
  show V m c main_v2 (((cfg0.win 2).blk t).view.emb (ix2 o c')) = V m c main_v2 (ix2 o c')
  refine congrArg (V m c main_v2) (funext fun a => Fin.ext ?_)
  match a with
  | ⟨0, _⟩ => show win0_2.index t (0 : Fin 2) * 512 + 1 * o.val = o.val; rw [e0]; omega
  | ⟨1, _⟩ => show win0_2.index t (1 : Fin 2) * 512 + 1 * c'.val = c'.val; rw [e1]; omega

/-- The bias column's block is the whole column: at (o, 0), entry o of the bias. -/
theorem iblk3_at (c : Dev nD) (t : Fin cfg0.N) (o : Fin 512) (z : Fin 1) :
    (iblk m c 3 t : Vec Ideal S512x1 .f32) (ix2 o z)
      = (m ((c.tc : Thread nD τ).loc main_arg3) : S512.Idx → EReal) (ix1 o) := by
  obtain ⟨-, -, -, -, -, -, -, e0, e1, -⟩ := idx_facts t
  rw [← V_v3_at m c o z]
  unfold iblk
  rw [View.read_apply]
  show V m c main_v3 (((cfg0.win 3).blk t).view.emb (ix2 o z)) = V m c main_v3 (ix2 o z)
  refine congrArg (V m c main_v3) (funext fun a => Fin.ext ?_)
  match a with
  | ⟨0, _⟩ => show win0_3.index t (0 : Fin 2) * 512 + 1 * o.val = o.val; rw [e0]; omega
  | ⟨1, _⟩ => show win0_3.index t (1 : Fin 2) * 1 + 1 * z.val = z.val; rw [e1]; omega

end Cert.KernelIdeal.ArrayValue

end
-- ==== Proof.KernelArray.lean ====
/-
  From what one grid point stores to what the result array holds after the run.

  Grid point t computes batch element t: given that the block it stores is the attention output of its own input
  blocks, the block is batch t of one whole-array function of the four arguments. The eight blocks tile the output
  array, so the array ends holding that function; the last host step only regroups the 1024 positions of each channel
  into 32 rows of 32 pixels, which is how the specification's result array reads a position.
-/
import proofs.«154232_j90744069030316_2_alg».proof.Proof.KernelBlocks

noncomputable section

open scoped BigOperators

namespace Cert.KernelIdeal.ArrayValue

open Cert.KernelIdeal Cert.KernelIdeal.Gen Cert.KernelIdeal.GenP Idealize.ShloMosaic Idealize.ShloMosaic.TcCoe Idealize.SL.Sem
  Idealize.ShloMosaic.ValueIdx Idealize.ShloMosaic.StableHlo

variable (m : (ℓ : Loc nD τ sig) → Buf (Elt Ideal) ℓ) (ρ : Dev nD → PrngReg)

/-- The attention output depends on its four array arguments only through their values. -/
theorem out_congr {W W' : Fin 1536 → Fin 512 → EReal} {X X' : Fin 512 → Fin 1024 → EReal}
    {Wo Wo' : Fin 512 → Fin 512 → EReal} {b b' : Fin 512 → EReal}
    (hW : W = W') (hX : X = X') (hWo : Wo = Wo') (hb : b = b') (o : Fin 512) (s : Fin 1024) :
    Attn.out W X Wo b o s = Attn.out W' X' Wo' b' o s := by
  subst hW; subst hX; subst hWo; subst hb; rfl

/-- The contents of the kernel's output array: at (n, o, s), batch element n's output channel o at position s. -/
def G4 (c : Dev nD) : S8x512x1024.Idx → EReal := fun j =>
  Attn.result (m ((c.tc : Thread nD τ).loc main_arg0)) (m ((c.tc : Thread nD τ).loc main_arg1))
    (m ((c.tc : Thread nD τ).loc main_arg2)) (m ((c.tc : Thread nD τ).loc main_arg3)) (j 0) (j 1) (j 2)

/-- An index of the output array is in point t's block iff each coordinate is in the block's range on its axis. -/
theorem mem_blk (t : Fin cfg0.N) (i : S8x512x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v4).slice (win0_4.rect t)).set ↔ _
  rw [View.set_slice_whole, Rect.mem_set_unit]
  exact Iff.rfl

/-- Every index of the output array is in the block of the point that is its batch coordinate. -/
theorem cover (i : S8x512x1024.Idx) :
    ∃ t : Fin cfg0.N, (cfg0.win 4).flush t = true ∧ i ∈ ((cfg0.win 4).blk t).view.set := by
  have hN : cfg0.N = 8 := N_0
  have hi0 : (i 0).val < 8 := (i 0).isLt
  have hi1 : (i 1).val < 512 := (i 1).isLt
  have hi2 : (i 2).val < 1024 := (i 2).isLt
  obtain ⟨t, ht⟩ : ∃ t : Fin cfg0.N, t.val = (i 0).val := ⟨⟨(i 0).val, by omega⟩, rfl⟩
  refine ⟨t, flush0_4 t, ?_⟩
  rw [mem_blk]
  obtain ⟨-, -, -, -, -, -, -, -, -, e0, e1, e2⟩ := idx_facts t
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 512 ≤ (i 1).val ∧ (i 1).val < win0_4.index t (1 : Fin 3) * 512 + 512
    rw [e1]; omega
  | ⟨2, _⟩ =>
    show win0_4.index t (2 : Fin 3) * 1024 ≤ (i 2).val ∧ (i 2).val < win0_4.index t (2 : Fin 3) * 1024 + 1024
    rw [e2]; omega

section
variable (hblock : ∀ (c : Dev nD) (t : Fin cfg0.N) (u : Fin 1) (o : Fin 512) (s : Fin 1024),
          GenP.outsAt0 (F := Ideal) m c t (ix3 u o s)
            = Cert.Attn.out (fun r c' => Gen.iblk m c 1 t (ix2 r c')) (fun c' s' => Gen.iblk m c 0 t (ix3 (0 : Fin 1) c' s'))
                (fun o' c' => Gen.iblk m c 2 t (ix2 o' c')) (fun o' => Gen.iblk m c 3 t (ix2 o' (0 : Fin 1))) o s)
include hblock

/-- What grid point t stores, at (0, o, s), is batch element t's output channel o at position s. -/
theorem out_at (c : Dev nD) (t : Fin cfg0.N) (u : Fin 1) (o : Fin 512) (s : Fin 1024) :
    GenP.outsAt0 (F := Ideal) m c t (ix3 u o s)
      = Attn.result (m ((c.tc : Thread nD τ).loc main_arg0)) (m ((c.tc : Thread nD τ).loc main_arg1))
          (m ((c.tc : Thread nD τ).loc main_arg2)) (m ((c.tc : Thread nD τ).loc main_arg3)) (batchOf t) o s := by
  refine (hblock c t u o s).trans ?_
  unfold Attn.result
  exact out_congr (funext fun r => funext fun c' => iblk1_at m c t r c')
    (funext fun c' => funext fun s' => iblk0_at m c t 0 c' s')
    (funext fun o' => funext fun c' => iblk2_at m c t o' c')
    (funext fun o' => iblk3_at m c t o' 0) o s

/-- What grid point t writes back is block t of the whole-array function. -/
theorem flushed_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  have key : ∀ y : S1x512x1024.Idx,
      GenP.outsAt0 (F := Ideal) m c t y = G4 m c (((cfg0.win 4).blk t).view.emb y) := fun y => by
    obtain ⟨u, o, s, rfl⟩ : ∃ (u : Fin 1) (o : Fin 512) (s : Fin 1024), y = ix3 u o s := ⟨y 0, y 1, y 2, eq_ix3 y⟩
    rw [out_at m hblock c t u o s]
    obtain ⟨-, -, -, -, -, -, -, -, -, e0, e1, e2⟩ := idx_facts t
    have hu := u.isLt
    have h0 : (((cfg0.win 4).blk t).view.emb (ix3 u o s) : S8x512x1024.Idx) 0 = batchOf t := Fin.ext (by
      show win0_4.index t (0 : Fin 3) * 1 + 1 * u.val = t.val; rw [e0]; omega)
    have h1 : (((cfg0.win 4).blk t).view.emb (ix3 u o s) : S8x512x1024.Idx) 1 = o := Fin.ext (by
      show win0_4.index t (1 : Fin 3) * 512 + 1 * o.val = o.val; rw [e1]; omega)
    have h2 : (((cfg0.win 4).blk t).view.emb (ix3 u o s) : S8x512x1024.Idx) 2 = s := Fin.ext (by
      show win0_4.index t (2 : Fin 3) * 1024 + 1 * s.val = s.val; rw [e2]; omega)
    unfold G4
    rw [h0, h1, h2]
  exact funext fun y => key y

/-- The output array after the run is the whole-array function. -/
theorem final (c : Dev nD) : (dats m 0 c).arrAt 4 cfg0.N = G4 m c :=
  (dats m 0 c).arrAt_eq_of_cover 4 (G4 m c) (fun t _ => flushed_eq m hblock c t) cover

/-- The result: the output array with each channel's 1024 positions regrouped into 32 rows of 32 pixels. -/
theorem tail (c : Dev nD) :
    Pipeline.afterTail₀ cfgs (dats m) 0 (V0 m) [hostOps1] c main_v5
      = Attn.resultArray (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v4)
      = G4 m c from (Pipeline.withArrays_arr spec0 launch0.win.arr_inj c _ _ 4).trans (final m hblock c)]
  funext i
  obtain ⟨n, o, hh, ww, rfl⟩ : ∃ (n : Fin 8) (o : Fin 512) (hh ww : Fin 32), i = ix4 n o hh ww :=
    ⟨i 0, i 1, i 2, i 3, eq_ix4 i⟩
  refine (shapeCast_apply _ _ (ix4 n o hh ww) (ix3 n o (Attn.pos hh ww)) ?_).trans rfl
  rewrite [Shape.rowMajor_val_three, Shape.rowMajor_val_four]
  have hn := n.isLt; have ho := o.isLt; have h1 := hh.isLt; have h2 := ww.isLt
  show (n.val * 512 + o.val) * 1024 + (hh.val * 32 + ww.val) = ((n.val * 512 + o.val) * 32 + hh.val) * 32 + ww.val
  omega

/-- The run: every execution ends with the result array at the specification's and the arguments as launched. -/
theorem run :
    θ_run (defs (F := Ideal)) (onTc (τ := τ) (main (F := Ideal))) ⟨m, fun _ => 0, ρ⟩ (fun r => ∀ c : Dev nD,
      r.2.mem ((c.tc : Thread nD τ).loc main_v5)
          = Cert.Attn.resultArray (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v5 (Pipeline.mem_restRefs_of main_v5 (by decide) (by decide))).trans (tail m hblock c),
      ((h c).2 main_arg0 (Pipeline.mem_restRefs_of main_arg0 (by decide) (by decide))).trans (W_main_arg0 m (GenP.dats m) c),
      ((h c).2 main_arg1 (Pipeline.mem_restRefs_of main_arg1 (by decide) (by decide))).trans (W_main_arg1 m (GenP.dats m) c),
      ((h c).2 main_arg2 (Pipeline.mem_restRefs_of main_arg2 (by decide) (by decide))).trans (W_main_arg2 m (GenP.dats m) c),
      ((h c).2 main_arg3 (Pipeline.mem_restRefs_of main_arg3 (by decide) (by decide))).trans (W_main_arg3 m (GenP.dats m) c)⟩)
    (GenP.run_main m ρ)

end

end Cert.KernelIdeal.ArrayValue

end
-- ==== Proof.RefLayout.lean ====
import proofs.«154232_j90744069030316_2_alg».proof.Proof.Gen.ReferenceIdeal.Read
import proofs.«154232_j90744069030316_2_alg».proof.Proof.AttnSpec

noncomputable section

open scoped BigOperators

namespace Cert.RefAttn

open Cert.ReferenceIdeal Cert.ReferenceIdeal.Gen Cert.ReferenceIdeal.Read Idealize.ShloMosaic Idealize.ShloMosaic.ValueIdx

/-- The stacked projection matrix as a function of (row, channel). -/
abbrev Wm (x1 : (⟨S1536x512, .f32⟩ : BufTy).Contents (Elt Ideal)) : Fin 1536 → Fin 512 → EReal :=
  fun r c => x1 (ix2 r c)

/-- Batch element n's input as a function of (channel, position): position s is the pixel (s / 32, s % 32). -/
abbrev Xm (x0 : (⟨S8x512x32x32, .f32⟩ : BufTy).Contents (Elt Ideal)) (n : Fin 8) : Fin 512 → Fin 1024 → EReal :=
  fun c s => x0 (ix4 n c (Attn.posRow s) (Attn.posCol s))

variable (x0 : (⟨S8x512x32x32, .f32⟩ : BufTy).Contents (Elt Ideal)) (x1 : (⟨S1536x512, .f32⟩ : BufTy).Contents (Elt Ideal))

/-- The flattened, channel-last view of the input at (n, s, c) is the input at channel c of pixel (s / 32, s % 32). -/
theorem v1_at (n : Fin 8) (s : Fin 1024) (c : Fin 512) :
    val_main_v1 (F := Ideal) x0 (ix3 n s c) = Xm x0 n c s := by
  rw [val_main_v1_apply, val_main_v0_apply]
  refine congrArg x0 (funext fun a => Fin.ext ?_)
  have hn := n.isLt; have hs := s.isLt; have hc := c.isLt
  match a with
  | ⟨0, _⟩ => show ((n.val * 1024 + s.val) * 512 + c.val) / 524288 = n.val; omega
  | ⟨1, _⟩ => show ((n.val * 1024 + s.val) * 512 + c.val) % 512 = c.val; omega
  | ⟨2, _⟩ => show ((n.val * 1024 + s.val) * 512 + c.val) / 16384 % 32 = s.val / 32; omega
  | ⟨3, _⟩ => show ((n.val * 1024 + s.val) * 512 + c.val) / 512 % 32 = s.val % 32; omega

/-- The first matrix product at (n, s, e) is row e of the stacked projections at position s. -/
theorem v2_at (n : Fin 8) (s : Fin 1024) (e : Fin 1536) :
    val_main_v2 (F := Ideal) x0 x1 (ix3 n s e) = Attn.proj (Wm x1) (Xm x0 n) e s := by
  rw [val_main_v2_apply]
  unfold Attn.proj
  refine Finset.sum_congr rfl fun c _ => ?_
  have el : lidx_main_v2 (ix3 n s e) c = ix3 n s c := funext fun a => Fin.ext (by
    match a with | ⟨0, _⟩ => rfl | ⟨1, _⟩ => rfl | ⟨2, _⟩ => rfl)
  have er : ridx_main_v2 (ix3 n s e) c = ix2 e c := funext fun a => Fin.ext (by
    match a with | ⟨0, _⟩ => rfl | ⟨1, _⟩ => rfl)
  rw [el, er, v1_at, mul_comm]

/-- The five-axis view at (j, n, h, s, d) is row (j, h, d) of the stacked projections at position s. -/
theorem v4_at (j : Fin 3) (n h : Fin 8) (s : Fin 1024) (d : Fin 64) :
    val_main_v4 (F := Ideal) x0 x1 (ix5 j n h s d) = Attn.proj (Wm x1) (Xm x0 n) (Attn.row j h d) s := by
  rw [val_main_v4_apply, val_main_v3_apply]
  have e : idx_main_v3 (idx_main_v4 (ix5 j n h s d)) = ix3 n s (Attn.row j h d) := funext fun a => Fin.ext (by
    have hj := j.isLt; have hn := n.isLt; have hh := h.isLt; have hs := s.isLt; have hd := d.isLt
    match a with
    | ⟨0, _⟩ =>
      show ((((n.val * 1024 + s.val) * 3 + j.val) * 8 + h.val) * 64 + d.val) / 1572864 = n.val; omega
    | ⟨1, _⟩ =>
      show ((((n.val * 1024 + s.val) * 3 + j.val) * 8 + h.val) * 64 + d.val) / 1536 % 1024 = s.val; omega
    | ⟨2, _⟩ =>
      show ((((n.val * 1024 + s.val) * 3 + j.val) * 8 + h.val) * 64 + d.val) % 1536
        = j.val * 512 + h.val * 64 + d.val; omega)
  rw [e, v2_at]

/-- The four-axis index (n, h, s, d), read through the reshape that drops a leading axis of size one. -/
theorem idx6_at (n h : Fin 8) (s : Fin 1024) (d : Fin 64) :
    idx_main_v6 (ix4 n h s d) = ix5 (0 : Fin 1) n h s d := funext fun a => Fin.ext (by
  have hn := n.isLt; have hh := h.isLt; have hs := s.isLt; have hd := d.isLt
  match a with
  | ⟨0, _⟩ => rfl
  | ⟨1, _⟩ => show (((n.val * 8 + h.val) * 1024 + s.val) * 64 + d.val) / 524288 % 8 = n.val; omega
  | ⟨2, _⟩ => show (((n.val * 8 + h.val) * 1024 + s.val) * 64 + d.val) / 65536 % 8 = h.val; omega
  | ⟨3, _⟩ => show (((n.val * 8 + h.val) * 1024 + s.val) * 64 + d.val) / 64 % 1024 = s.val; omega
  | ⟨4, _⟩ => show (((n.val * 8 + h.val) * 1024 + s.val) * 64 + d.val) % 64 = d.val; omega)

/-- The queries: feature d of head h at position s. -/
theorem v6_at (n h : Fin 8) (s : Fin 1024) (d : Fin 64) :
    val_main_v6 (F := Ideal) x0 x1 (ix4 n h s d) = Attn.proj (Wm x1) (Xm x0 n) (Attn.row 0 h d) s := by
  rw [val_main_v6_apply, val_main_v5_apply, show idx_main_v6 (ix4 n h s d) = ix5 (0 : Fin 1) n h s d from idx6_at n h s d]
  have e : idx_main_v5 (ix5 (0 : Fin 1) n h s d) = ix5 (0 : Fin 3) n h s d := funext fun a => Fin.ext (by
    match a with | ⟨0, _⟩ => rfl | ⟨1, _⟩ => rfl | ⟨2, _⟩ => rfl | ⟨3, _⟩ => rfl | ⟨4, _⟩ => rfl)
  rw [e, v4_at]

/-- The keys. -/
theorem v8_at (n h : Fin 8) (s : Fin 1024) (d : Fin 64) :
    val_main_v8 (F := Ideal) x0 x1 (ix4 n h s d) = Attn.proj (Wm x1) (Xm x0 n) (Attn.row 1 h d) s := by
  rw [val_main_v8_apply, val_main_v7_apply, show idx_main_v8 (ix4 n h s d) = ix5 (0 : Fin 1) n h s d from idx6_at n h s d]
  have e : idx_main_v7 (ix5 (0 : Fin 1) n h s d) = ix5 (1 : Fin 3) n h s d := funext fun a => Fin.ext (by
    match a with | ⟨0, _⟩ => rfl | ⟨1, _⟩ => rfl | ⟨2, _⟩ => rfl | ⟨3, _⟩ => rfl | ⟨4, _⟩ => rfl)
  rw [e, v4_at]

/-- The values. -/
theorem v10_at (n h : Fin 8) (s : Fin 1024) (d : Fin 64) :
    val_main_v10 (F := Ideal) x0 x1 (ix4 n h s d) = Attn.proj (Wm x1) (Xm x0 n) (Attn.row 2 h d) s := by
  rw [val_main_v10_apply, val_main_v9_apply, show idx_main_v10 (ix4 n h s d) = ix5 (0 : Fin 1) n h s d from idx6_at n h s d]
  have e : idx_main_v9 (ix5 (0 : Fin 1) n h s d) = ix5 (2 : Fin 3) n h s d := funext fun a => Fin.ext (by
    match a with | ⟨0, _⟩ => rfl | ⟨1, _⟩ => rfl | ⟨2, _⟩ => rfl | ⟨3, _⟩ => rfl | ⟨4, _⟩ => rfl)
  rw [e, v4_at]

end Cert.RefAttn

end
-- ==== Proof.RefConsts.lean ====
/-
  The two float constants of the scaled scores, as the extended reals their patterns denote.

  The plain arrangement of the attention divides every score by the f32 word of 8; the specification multiplies by
  the f32 word of 1/8. Both words denote exact reals (8 and 1/8 are powers of two), and dividing an extended real by a
  nonzero real is multiplying by its reciprocal, so the two scalings are one function of the score — for every
  extended real, the infinities and the junk value included.
-/
import Idealize.ShloMosaic.PureOps.Ideal

noncomputable section

namespace Cert.RefAttn

open Idealize.ShloMosaic

/-- The f32 word 0x41000000 denotes the real 8. -/
theorem ofBits_eight : Ideal.ofBits .f32 0x41000000#32 = ((8 : ℝ) : EReal) := by
  simp [Ideal.ofBits, Ideal.ieee, -EReal.coe_mul]; norm_num

/-- The f32 word 0x3E000000 denotes the real 1/8. -/
theorem ofBits_eighth : Ideal.ofBits .f32 0x3E000000#32 = ((1 / 8 : ℝ) : EReal) := by
  simp [Ideal.ofBits, Ideal.ieee, -EReal.coe_mul]; norm_num

/-- Dividing by the word of 8 is multiplying by the word of 1/8, at every extended real. -/
theorem div_eight_eq_mul_eighth (a : EReal) :
    Ideal.div a (Ideal.ofBits .f32 0x41000000#32) = a * Ideal.ofBits .f32 0x3E000000#32 := by
  rw [ofBits_eight, ofBits_eighth]
  exact Ideal.div_coe (by norm_num) a

end Cert.RefAttn

end
-- ==== Proof.RefScores.lean ====
/-
  The scores and their softmax in the plain arrangement, stage by stage, at explicit coordinates.

  At batch element n and head h the raw score of query position q against key position k is the sum over the 64
  features of query feature times key feature; it is divided by the word of 8 (which is multiplying by the word of 1/8).
  The row maximum is a fold of max from the word of minus infinity over the 1024 keys; taking the maximum of that word
  and the fold again changes nothing, because a fold of max is at least its initial value. The denominators are sums
  from the zero word, which adds nothing.
-/
import proofs.«154232_j90744069030316_2_alg».proof.Proof.RefLayout
import proofs.«154232_j90744069030316_2_alg».proof.Proof.RefConsts
import Idealize.ShloMosaic.PureOps.Reduce

noncomputable section

open scoped BigOperators

namespace Cert.RefAttn

open Cert.ReferenceIdeal Cert.ReferenceIdeal.Gen Cert.ReferenceIdeal.Read Idealize.ShloMosaic Idealize.ShloMosaic.ValueIdx

variable (x0 : (⟨S8x512x32x32, .f32⟩ : BufTy).Contents (Elt Ideal)) (x1 : (⟨S1536x512, .f32⟩ : BufTy).Contents (Elt Ideal))

/-- The raw score at (n, h, q, k): the sum over the features of query feature times key feature. -/
theorem v11_at (n h : Fin 8) (q k : Fin 1024) :
    val_main_v11 (F := Ideal) x0 x1 (ix4 n h q k)
      = ∑ d : Fin 64, Attn.proj (Wm x1) (Xm x0 n) (Attn.row 0 h d) q * Attn.proj (Wm x1) (Xm x0 n) (Attn.row 1 h d) k := by
  rw [val_main_v11_apply]
  refine Finset.sum_congr rfl fun d _ => ?_
  have el : lidx_main_v11 (ix4 n h q k) d = ix4 n h q d := funext fun a => Fin.ext (by
    match a with | ⟨0, _⟩ => rfl | ⟨1, _⟩ => rfl | ⟨2, _⟩ => rfl | ⟨3, _⟩ => rfl)
  have er : ridx_main_v11 (ix4 n h q k) d = ix4 n h k d := funext fun a => Fin.ext (by
    match a with | ⟨0, _⟩ => rfl | ⟨1, _⟩ => rfl | ⟨2, _⟩ => rfl | ⟨3, _⟩ => rfl)
  rw [el, er, v6_at, v8_at]

/-- The scaled score: dividing by the word of 8 is the specification's multiplying by the word of 1/8. -/
theorem v13_at (n h : Fin 8) (q k : Fin 1024) :
    val_main_v13 (F := Ideal) x0 x1 (ix4 n h q k) = Attn.score (Wm x1) (Xm x0 n) h q k := by
  rw [val_main_v13_apply, val_main_v12_apply, val_main_cst_apply, v11_at, Ideal.hostDivf_def, Ideal.ofBits_def,
    div_eight_eq_mul_eighth]
  rfl

/-- Dropping the last axis of the score array, as the relation the single-axis reading of a reduction takes. -/
theorem red3 : S8x8x1024x1024.Reduces [3] S8x8x1024 := by decide

/-- The reduced index (n, h, q) with key position k put back on the last axis is (n, h, q, k). -/
theorem lift_ix3 (n h : Fin 8) (q : Fin 1024) (k : Fin (S8x8x1024x1024.size 3)) :
    red3.lift (ix3 n h q) k = ix4 n h q (⟨k.val, k.isLt⟩ : Fin 1024) := by
  funext c; apply Fin.ext
  fin_cases c <;> rfl

/-- The max-reduce over the keys at (n, h, q) is the row maximum of the scores, folded from the word of minus infinity. -/
theorem v14_at (n h : Fin 8) (q : Fin 1024) :
    val_main_v14 (F := Ideal) x0 x1 (ix3 n h q) = Attn.rowMax (Attn.score (Wm x1) (Xm x0 n) h q) := by
  unfold val_main_v14
  have hr := Host.reduce_eq_fold_single (FloatOps.maximumf (F := Ideal) (φ := .f32)) (val_main_v13 (F := Ideal) x0 x1)
    (val_main_cst_0 (F := Ideal)) reducesTo_S8x8x1024x1024_S8x8x1024_d3 red3 h_S_ (ix3 n h q)
  refine hr.trans ?_
  have hf : (val_main_v13 (F := Ideal) x0 x1 ∘ red3.lift (ix3 n h q))
      = fun k : Fin 1024 => Attn.score (Wm x1) (Xm x0 n) h q k := funext fun k => by
    show val_main_v13 (F := Ideal) x0 x1 (red3.lift (ix3 n h q) k) = _
    rw [lift_ix3, v13_at]
    rfl
  exact congrArg (fun f => Finset.fold max (Ideal.ofBits .f32 0xFF800000#32) f (Finset.univ : Finset (Fin 1024))) hf

/-- The maximum of the word of minus infinity and the row maximum is the row maximum: a fold of max is at least its
    initial value, which is that same word. -/
theorem v16_at (n h : Fin 8) (q : Fin 1024) :
    val_main_v16 (F := Ideal) x0 x1 (ix3 n h q) = Attn.rowMax (Attn.score (Wm x1) (Xm x0 n) h q) := by
  rw [val_main_v16_apply, val_main_v15_apply, val_main_cst_1_apply, v14_at, Ideal.maximumf_def, Ideal.ofBits_def]
  refine max_eq_right ?_
  unfold Attn.rowMax
  exact (Finset.le_fold_max _).2 (Or.inl le_rfl)

/-- The row maximum broadcast back along the keys. -/
theorem v18_at (n h : Fin 8) (q k : Fin 1024) :
    val_main_v18 (F := Ideal) x0 x1 (ix4 n h q k) = Attn.rowMax (Attn.score (Wm x1) (Xm x0 n) h q) := by
  rw [val_main_v18_apply, val_main_v17_apply]
  have e : idx_main_v17 (idx_main_v18 (ix4 n h q k)) = ix3 n h q := funext fun a => Fin.ext (by
    match a with | ⟨0, _⟩ => rfl | ⟨1, _⟩ => rfl | ⟨2, _⟩ => rfl)
  rw [e, v16_at]

/-- The exponential of the score minus its row's maximum. -/
theorem v20_at (n h : Fin 8) (q k : Fin 1024) :
    val_main_v20 (F := Ideal) x0 x1 (ix4 n h q k)
      = Ideal.exp (Attn.score (Wm x1) (Xm x0 n) h q k - Attn.rowMax (Attn.score (Wm x1) (Xm x0 n) h q)) := by
  rw [val_main_v20_apply, val_main_v19_apply, v13_at, v18_at, Ideal.hostUnary_exp_def, Ideal.subf_def]

/-- The denominators: the sum over the keys from the zero word, which adds nothing. -/
theorem v21_at (n h : Fin 8) (q : Fin 1024) :
    val_main_v21 (F := Ideal) x0 x1 (ix3 n h q)
      = ∑ c : Fin 1024, Ideal.exp (Attn.score (Wm x1) (Xm x0 n) h q c - Attn.rowMax (Attn.score (Wm x1) (Xm x0 n) h q)) := by
  rw [val_main_v21_apply, val_main_cst_2_apply, Ideal.ofBits_def, Ideal.ofBits_zero_f32, zero_add]
  refine Finset.sum_congr rfl fun c _ => ?_
  have e : idx_main_v21 (ix3 n h q) c = ix4 n h q c := funext fun a => Fin.ext (by
    match a with | ⟨0, _⟩ => rfl | ⟨1, _⟩ => rfl | ⟨2, _⟩ => rfl | ⟨3, _⟩ => rfl)
  rw [e, v20_at]

/-- The denominators broadcast back along the keys. -/
theorem v23_at (n h : Fin 8) (q k : Fin 1024) :
    val_main_v23 (F := Ideal) x0 x1 (ix4 n h q k)
      = ∑ c : Fin 1024, Ideal.exp (Attn.score (Wm x1) (Xm x0 n) h q c - Attn.rowMax (Attn.score (Wm x1) (Xm x0 n) h q)) := by
  rw [val_main_v23_apply, val_main_v22_apply]
  have e : idx_main_v22 (idx_main_v23 (ix4 n h q k)) = ix3 n h q := funext fun a => Fin.ext (by
    match a with | ⟨0, _⟩ => rfl | ⟨1, _⟩ => rfl | ⟨2, _⟩ => rfl)
  rw [e, v21_at]

/-- The attention weights: the softmax of row (n, h, q) of the scores, at key position k. -/
theorem v24_at (n h : Fin 8) (q k : Fin 1024) :
    val_main_v24 (F := Ideal) x0 x1 (ix4 n h q k) = Attn.softmax (Attn.score (Wm x1) (Xm x0 n) h q) k := by
  rw [val_main_v24_apply, v20_at, v23_at, Ideal.hostDivf_def]
  rfl

end Cert.RefAttn

end
-- ==== Proof.RefAttn.lean ====
/-
  The attention output and the output projection in the plain arrangement, and the whole result.

  Feature d of head h at position s is the sum over the keys of the attention weight times the value feature. The heads
  are laid side by side, channel c being feature c % 64 of head c / 64; the output projection multiplies the merged row
  by the output matrix (input times weight, which is weight times input) and adds the bias; the last two layout steps
  put position hh * 32 + ww back at pixel (hh, ww) with the channel axis second.
-/
import proofs.«154232_j90744069030316_2_alg».proof.Proof.RefScores

noncomputable section

open scoped BigOperators

namespace Cert.RefAttn

open Cert.ReferenceIdeal Cert.ReferenceIdeal.Gen Cert.ReferenceIdeal.Read Idealize.ShloMosaic Idealize.ShloMosaic.ValueIdx

variable (x0 : (⟨S8x512x32x32, .f32⟩ : BufTy).Contents (Elt Ideal)) (x1 : (⟨S1536x512, .f32⟩ : BufTy).Contents (Elt Ideal))
  (x2 : (⟨S512x512, .f32⟩ : BufTy).Contents (Elt Ideal)) (x3 : (⟨S512, .f32⟩ : BufTy).Contents (Elt Ideal))

/-- The weighted sum of the values: feature d of head h's attention output at position s. -/
theorem v25_at (n h : Fin 8) (s : Fin 1024) (d : Fin 64) :
    val_main_v25 (F := Ideal) x0 x1 (ix4 n h s d) = Attn.head (Wm x1) (Xm x0 n) h d s := by
  rw [val_main_v25_apply]
  unfold Attn.head
  refine Finset.sum_congr rfl fun k _ => ?_
  have el : lidx_main_v25 (ix4 n h s d) k = ix4 n h s k := funext fun a => Fin.ext (by
    match a with | ⟨0, _⟩ => rfl | ⟨1, _⟩ => rfl | ⟨2, _⟩ => rfl | ⟨3, _⟩ => rfl)
  have er : ridx_main_v25 (ix4 n h s d) k = ix4 n h k d := funext fun a => Fin.ext (by
    match a with | ⟨0, _⟩ => rfl | ⟨1, _⟩ => rfl | ⟨2, _⟩ => rfl | ⟨3, _⟩ => rfl)
  rw [el, er, v24_at, v10_at]

/-- The heads merged: channel c of the row at position s is feature c % 64 of head c / 64. -/
theorem v27_at (n : Fin 8) (s : Fin 1024) (c : Fin 512) :
    val_main_v27 (F := Ideal) x0 x1 (ix3 n s c) = Attn.attnRow (Wm x1) (Xm x0 n) c s := by
  rw [val_main_v27_apply, val_main_v26_apply]
  have e : idx_main_v26 (idx_main_v27 (ix3 n s c)) = ix4 n (Attn.headOf c) s (Attn.featOf c) :=
    funext fun a => Fin.ext (by
      have hn := n.isLt; have hs := s.isLt; have hc := c.isLt
      match a with
      | ⟨0, _⟩ => show ((n.val * 1024 + s.val) * 512 + c.val) / 524288 = n.val; omega
      | ⟨1, _⟩ => show ((n.val * 1024 + s.val) * 512 + c.val) / 64 % 8 = c.val / 64; omega
      | ⟨2, _⟩ => show ((n.val * 1024 + s.val) * 512 + c.val) / 512 % 1024 = s.val; omega
      | ⟨3, _⟩ => show ((n.val * 1024 + s.val) * 512 + c.val) % 64 = c.val % 64; omega)
  rw [e, v25_at]
  rfl

/-- The output projection with its bias at (n, s, o). -/
theorem v31_at (n : Fin 8) (s : Fin 1024) (o : Fin 512) :
    val_main_v31 (F := Ideal) x0 x1 x2 x3 (ix3 n s o)
      = Attn.out (Wm x1) (Xm x0 n) (fun o' c => x2 (ix2 o' c)) (fun o' => x3 (ix1 o')) o s := by
  rw [val_main_v31_apply, val_main_v28_apply, val_main_v30_apply, val_main_v29_apply, Ideal.addf_def]
  have eb : idx_main_v29 (idx_main_v30 (ix3 n s o)) = ix1 o := funext fun a => Fin.ext (by
    match a with | ⟨0, _⟩ => rfl)
  rw [eb]
  unfold Attn.out
  refine congrArg₂ (· + ·) (Finset.sum_congr rfl fun c _ => ?_) rfl
  have el : lidx_main_v28 (ix3 n s o) c = ix3 n s c := funext fun a => Fin.ext (by
    match a with | ⟨0, _⟩ => rfl | ⟨1, _⟩ => rfl | ⟨2, _⟩ => rfl)
  have er : ridx_main_v28 (ix3 n s o) c = ix2 o c := funext fun a => Fin.ext (by
    match a with | ⟨0, _⟩ => rfl | ⟨1, _⟩ => rfl)
  rw [el, er, v27_at, mul_comm]

/-- The result at (n, o, hh, ww): batch element n's output channel o at the position of pixel (hh, ww). -/
theorem v33_at (n : Fin 8) (o : Fin 512) (hh ww : Fin 32) :
    val_main_v33 (F := Ideal) x0 x1 x2 x3 (ix4 n o hh ww) = Attn.result x0 x1 x2 x3 n o (Attn.pos hh ww) := by
  rw [val_main_v33_apply, val_main_v32_apply]
  have e : idx_main_v32 (idx_main_v33 (ix4 n o hh ww)) = ix3 n (Attn.pos hh ww) o := funext fun a => Fin.ext (by
    have hn := n.isLt; have ho := o.isLt; have h1 := hh.isLt; have h2 := ww.isLt
    match a with
    | ⟨0, _⟩ => show (((n.val * 32 + hh.val) * 32 + ww.val) * 512 + o.val) / 524288 = n.val; omega
    | ⟨1, _⟩ =>
      show (((n.val * 32 + hh.val) * 32 + ww.val) * 512 + o.val) / 512 % 1024 = hh.val * 32 + ww.val; omega
    | ⟨2, _⟩ => show (((n.val * 32 + hh.val) * 32 + ww.val) * 512 + o.val) % 512 = o.val; omega)
  rw [e, v31_at]
  rfl

/-- The plain arrangement computes the specification's result array. -/
theorem val_eq
    (x0 : (⟨Cert.ReferenceIdeal.S8x512x32x32, .f32⟩ : BufTy).Contents (Elt Ideal)) (x1 : (⟨Cert.ReferenceIdeal.S1536x512, .f32⟩ : BufTy).Contents (Elt Ideal))
    (x2 : (⟨Cert.ReferenceIdeal.S512x512, .f32⟩ : BufTy).Contents (Elt Ideal)) (x3 : (⟨Cert.ReferenceIdeal.S512, .f32⟩ : BufTy).Contents (Elt Ideal)) :
    Cert.ReferenceIdeal.Read.val_main_v33 (F := Ideal) x0 x1 x2 x3 = Cert.Attn.resultArray x0 x1 x2 x3 := by
  funext i
  obtain ⟨n, o, hh, ww, rfl⟩ : ∃ (n : Fin 8) (o : Fin 512) (hh ww : Fin 32), i = ix4 n o hh ww :=
    ⟨i 0, i 1, i 2, i 3, eq_ix4 i⟩
  rw [v33_at]
  rfl

end Cert.RefAttn

end
-- ==== Proof.lean ====
/-
  A fused multi-head self-attention kernel against its plain reference, over the extended reals.

  The kernel takes x : [8, 512, 32, 32], the stacked projection weights [1536, 512], the output weights [512, 512] and a bias
  [512]. For each batch element it forms the three projections of the [512, 1024] input (channels by positions), runs the
  eight heads one after the other — scores scaled by 1/8, a maximum-shifted softmax along the keys, the weighted sum of the
  values — into a [512, 1024] buffer, and applies the output projection and the bias. The reference computes the same
  attention in the [positions, channels] layout, dividing the scores by 8.

  Both end at ONE function of the four argument arrays, `Cert.Attn.resultArray` (AttnSpec.lean): the reference by reading
  its operations one at a time at an index (RefAttn.lean), the kernel by reading what each grid point stores (KernelBlock.lean:
  the loop's eight slabs are pieces of one function of the buffer's index) and what the result array holds after the run and
  the final reshape (KernelArray.lean). The laws that join the two arrangements are commutativity of the product, a / 8 = a · (1/8)
  on every extended real (1/8 is an exact binary fraction), and max(−∞, m) = m; none needs the inputs finite, so the
  precondition is never opened.

  The two frames of the kernel are the frame certificate's, over a run in which the read-back of the attention buffer is stated
  independently of what the buffer held before (KernelRunA.lean, KernelIdealRunA.lean); the reference's frame is its run with the
  result dropped; the idealization rewrote nothing.
-/
import proofs.«154232_j90744069030316_2_alg».proof.Defs
import proofs.«154232_j90744069030316_2_alg».proof.Proof.Gen.Kernel
import proofs.«154232_j90744069030316_2_alg».proof.Proof.Gen.KernelIdeal
import proofs.«154232_j90744069030316_2_alg».proof.Proof.Gen.ReferenceIdeal
import proofs.«154232_j90744069030316_2_alg».proof.Proof.Gen.ReferenceIdeal.Run
import proofs.«154232_j90744069030316_2_alg».proof.Proof.Gen.ReferenceIdeal.Read
import proofs.«154232_j90744069030316_2_alg».proof.Proof.Gen.Pre_finite_inputs
import proofs.«154232_j90744069030316_2_alg».proof.Proof.KernelFrame
import proofs.«154232_j90744069030316_2_alg».proof.Proof.KernelIdealFrame
import proofs.«154232_j90744069030316_2_alg».proof.Proof.KernelBlock
import proofs.«154232_j90744069030316_2_alg».proof.Proof.KernelArray
import proofs.«154232_j90744069030316_2_alg».proof.Proof.RefAttn
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at `Cert.Attn.resultArray` of the argument arrays. -/
theorem algebraic : Cert.algebraic_KernelIdeal_ReferenceIdeal := by
  intro m ρ m' ρ' _ hagree
  refine ⟨fun c => Cert.Attn.resultArray (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ (Cert.KernelIdeal.Block.point_value m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.RefAttn.val_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
